-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S120x1024 : Shape := ⟨2, ![120, 1024]⟩
abbrev S120 : Shape := ⟨1, ![120]⟩
abbrev S1x120 : Shape := ⟨2, ![1, 120]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S120x1024 : S_.BroadcastsInDim S120x1024 (![] : Fin 0 → Fin S120x1024.rank)
  reducesTo_S120x1024_S_d0_1 : S120x1024.ReducesTo [0, 1] S_
  bcast_S_S120 : S_.BroadcastsInDim S120 (![] : Fin 0 → Fin S120.rank)
  reducesTo_S120_S_d0 : S120.ReducesTo [0] S_
  bcast_S_S1x120 : S_.BroadcastsInDim S1x120 (![] : Fin 0 → Fin S1x120.rank)
  reducesTo_S1x120_S_d0_1 : S1x120.ReducesTo [0, 1] S_

variable [Facts]

def fn_part1 {F : FTy → Type} [FloatOps F] (main_arg4 : FVec F S1x120 .f32) (main_v13 : IVec S_ 1) (main_v16 : IVec S120 1) : IVec S_ 1 :=
  let main_c_5 : IVec S_ 1 := constantI S_ 1 1#1
  let main_v17 : IVec S_ 1 := (fun x v => Host.reduce IntOp.andi x v reducesTo_S120_S_d0 h_S_) main_v16 main_c_5
  let main_v18 : IVec S_ 1 := andi main_v13 main_v17
  let main_v19 : FVec F S1x120 .f32 := Host.absf main_arg4
  let main_cst_6 : FVec F S_ .f32 := constant S_ .f32 0x7F800000#32
  let main_v20 : FVec F S1x120 .f32 := broadcastInDim S1x120 ![] bcast_S_S1x120 main_cst_6
  let main_v21 : IVec S1x120 1 := cmpf .olt main_v19 main_v20
  let main_c_7 : IVec S_ 1 := constantI S_ 1 1#1
  let main_v22 : IVec S_ 1 := (fun x v => Host.reduce IntOp.andi x v reducesTo_S1x120_S_d0_1 h_S_) main_v21 main_c_7
  let main_v23 : IVec S_ 1 := andi main_v18 main_v22
  main_v23

def fn {F : FTy → Type} [FloatOps F] (main_arg0 : FVec F S4x4096x1024 .f32) (main_arg1 : FVec F S4x4096x1024 .f32) (main_arg2 : FVec F S120x1024 .f32) (main_arg3 : FVec F S120 .f32) (main_arg4 : FVec F S1x120 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S120x1024 .f32 := Host.absf main_arg2
  let main_cst_2 : FVec F S_ .f32 := constant S_ .f32 0x7F800000#32
  let main_v10 : FVec F S120x1024 .f32 := broadcastInDim S120x1024 ![] bcast_S_S120x1024 main_cst_2
  let main_v11 : IVec S120x1024 1 := cmpf .olt main_v9 main_v10
  let main_c_3 : IVec S_ 1 := constantI S_ 1 1#1
  let main_v12 : IVec S_ 1 := (fun x v => Host.reduce IntOp.andi x v reducesTo_S120x1024_S_d0_1 h_S_) main_v11 main_c_3
  let main_v13 : IVec S_ 1 := andi main_v8 main_v12
  let main_v14 : FVec F S120 .f32 := Host.absf main_arg3
  let main_cst_4 : FVec F S_ .f32 := constant S_ .f32 0x7F800000#32
  let main_v15 : FVec F S120 .f32 := broadcastInDim S120 ![] bcast_S_S120 main_cst_4
  let main_v16 : IVec S120 1 := cmpf .olt main_v14 main_v15
  fn_part1 (F := F) main_arg4 main_v13 main_v16
-- ==== Kernel.lean ====
abbrev S4x4096x1024 : Shape := ⟨3, ![4, 4096, 1024]⟩
abbrev S120x1024 : Shape := ⟨2, ![120, 1024]⟩
abbrev S120 : Shape := ⟨1, ![120]⟩
abbrev S1x120 : Shape := ⟨2, ![1, 120]⟩
abbrev S_ : Shape := ⟨0, ![]⟩
abbrev S128x1024 : Shape := ⟨2, ![128, 1024]⟩
abbrev S1024x128 : Shape := ⟨2, ![1024, 128]⟩
abbrev S128 : Shape := ⟨1, ![128]⟩
abbrev S1x128 : Shape := ⟨2, ![1, 128]⟩
abbrev S4x4096x128 : Shape := ⟨3, ![4, 4096, 128]⟩
abbrev S1x2048x1024 : Shape := ⟨3, ![1, 2048, 1024]⟩
abbrev S1x2048x128 : Shape := ⟨3, ![1, 2048, 128]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩
abbrev S4x4096x4096 : Shape := ⟨3, ![4, 4096, 4096]⟩
abbrev S1x512x128 : Shape := ⟨3, ![1, 512, 128]⟩
abbrev S1x4096x128 : Shape := ⟨3, ![1, 4096, 128]⟩
abbrev S1x512x4096 : Shape := ⟨3, ![1, 512, 4096]⟩
abbrev S512x128 : Shape := ⟨2, ![512, 128]⟩
abbrev S4096x128 : Shape := ⟨2, ![4096, 128]⟩
abbrev S512x4096 : Shape := ⟨2, ![512, 4096]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S120x1024, .f32⟩
  | .hbm, ⟨3, _⟩ => ⟨S120, .f32⟩
  | .hbm, ⟨4, _⟩ => ⟨S1x120, .f32⟩
  | .hbm, ⟨5, _⟩ => ⟨S_, .i32⟩
  | .hbm, ⟨6, _⟩ => ⟨S_, .f32⟩
  | .hbm, ⟨7, _⟩ => ⟨S128x1024, .f32⟩
  | .hbm, ⟨8, _⟩ => ⟨S1024x128, .f32⟩
  | .hbm, ⟨9, _⟩ => ⟨S1024x128, .bf16⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S4x4096x128, .bf16⟩
  | .hbm, ⟨18, _⟩ => ⟨S4x4096x4096, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x128, .bf16⟩
  | .local _ .vmem, ⟨3, _⟩ => ⟨S1x128, .f32⟩
  | .local _ .vmem, ⟨4, _⟩ => ⟨S1x128, .f32⟩
  | .local _ .vmem, ⟨5, _⟩ => ⟨S1x2048x128, .bf16⟩
  | .local _ .vmem, ⟨6, _⟩ => ⟨S1x2048x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x512x4096, .f32⟩
  | .local _ .vmem, ⟨12, _⟩ => ⟨S1x512x4096, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  pads_S120x1024_S128x1024_080_000 : S120x1024.Pads (![0, 0] : Fin 2 → Nat) ![8, 0] ![0, 0] S128x1024
  h_S_ : 0 < S_.numel
  transposes_S128x1024_S1024x128_1_0 : S128x1024.Transposes [1, 0] S1024x128
  bitsLt_bf16_f32 : FTy.bits .bf16 < FTy.bits .f32
  pads_S120_S128_080 : S120.Pads (![0] : Fin 1 → Nat) ![8] ![0] S128
  shapeCasts_S128_S1x128 : S128.ShapeCasts S1x128
  pads_S1x120_S1x128_000_080 : S1x120.Pads (![0, 0] : Fin 2 → Nat) ![0, 8] ![0, 0] S1x128
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  packedbf16_S1x2048x128_S1x2048x128_0_0_0 : (Rect.unit (s := S1x2048x128) ![0, 0, 0] S1x2048x128.size inb_S1x2048x128_S1x2048x128_0_0_0).PackedRows (EltTy.packing .bf16)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S512x4096_S512 : S512x4096.Reduces [1] S512
  shapeCasts_S512_S512x1 : S512.ShapeCasts S512x1
  broadcasts_S512x1_S512x4096 : S512x1.Broadcasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  dot_S2048x1024_S1024x128_S2048x128_1_0_0_1_n_n_wf : DotDims.WF S2048x1024 S1024x128 S2048x128 [1] [0] [0] [1] [] []
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x4096x1024.size a
  hwx0_0 : ∀ i : grid0.Coords, EltTy.bits .f32 = 32 ∨ (Rect.block (s := S4x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S4x4096x128.size a
  hwx0_4 : ∀ i : grid0.Coords, EltTy.bits .bf16 = 32 ∨ (Rect.block (s := S4x4096x128) S1x2048x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x4096x128.size a
  hwx1_0 : ∀ i : grid1.Coords, EltTy.bits .bf16 = 32 ∨ (Rect.block (s := S4x4096x128) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S4x4096x128.size a
  hwx1_1 : ∀ i : grid1.Coords, EltTy.bits .bf16 = 32 ∨ (Rect.block (s := S4x4096x128) S1x4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x4096.size a ≤ S4x4096x4096.size a
  hwx1_2 : ∀ i : grid1.Coords, EltTy.bits .f32 = 32 ∨ (Rect.block (s := S4x4096x4096) S1x512x4096.size (cc1_transform_2 i) (hinb1_2 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S120x1024 : Shape := ⟨2, ![120, 1024]⟩
abbrev S120 : Shape := ⟨1, ![120]⟩
abbrev S1x120 : Shape := ⟨2, ![1, 120]⟩
abbrev S4x4096x120 : Shape := ⟨3, ![4, 4096, 120]⟩
abbrev S1x1x120 : Shape := ⟨3, ![1, 1, 120]⟩
abbrev S1x4x4096x120 : Shape := ⟨4, ![1, 4, 4096, 120]⟩
abbrev S1x1x1x120 : Shape := ⟨4, ![1, 1, 1, 120]⟩
abbrev S_ : Shape := ⟨0, ![]⟩
abbrev S1x4x4096 : Shape := ⟨3, ![1, 4, 4096]⟩
abbrev S1x4x4096x1 : Shape := ⟨4, ![1, 4, 4096, 1]⟩
abbrev S1x4x4096x4096 : Shape := ⟨4, ![1, 4, 4096, 4096]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S120x1024, .f32⟩
  | .hbm, ⟨3, _⟩ => ⟨S120, .f32⟩
  | .hbm, ⟨4, _⟩ => ⟨S1x120, .f32⟩
  | .hbm, ⟨5, _⟩ => ⟨S4x4096x120, .f32⟩
  | .hbm, ⟨6, _⟩ => ⟨S1x1x120, .f32⟩
  | .hbm, ⟨7, _⟩ => ⟨S4x4096x120, .f32⟩
  | .hbm, ⟨8, _⟩ => ⟨S4x4096x120, .f32⟩
  | .hbm, ⟨9, _⟩ => ⟨S1x4x4096x120, .f32⟩
  | .hbm, ⟨10, _⟩ => ⟨S1x1x1x120, .f32⟩
  | .hbm, ⟨11, _⟩ => ⟨S1x4x4096x120, .f32⟩
  | .hbm, ⟨12, _⟩ => ⟨S1x4x4096x120, .f32⟩
  | .hbm, ⟨13, _⟩ => ⟨S1x4x4096x120, .f32⟩
  | .hbm, ⟨14, _⟩ => ⟨S_, .f32⟩
  | .hbm, ⟨15, _⟩ => ⟨S1x4x4096, .f32⟩
  | .hbm, ⟨16, _⟩ => ⟨S1x4x4096x1, .f32⟩
  | .hbm, ⟨17, _⟩ => ⟨S1x4x4096x1, .f32⟩
  | .hbm, ⟨18, _⟩ => ⟨S_, .f32⟩
  | .hbm, ⟨19, _⟩ => ⟨S1x4x4096x1, .f32⟩
  | .hbm, ⟨20, _⟩ => ⟨S1x4x4096x1, .f32⟩
  | .hbm, ⟨21, _⟩ => ⟨S1x4x4096x120, .f32⟩
  | .hbm, ⟨22, _⟩ => ⟨S1x4x4096x120, .f32⟩
  | .hbm, ⟨23, _⟩ => ⟨S1x4x4096x4096, .f32⟩
  | .hbm, ⟨24, _⟩ => ⟨S_, .f32⟩
  | .hbm, ⟨25, _⟩ => ⟨S4x4096x4096, .f32⟩
  | .hbm, ⟨26, _⟩ => ⟨S_, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x4096, .f32⟩
  | .hbm, ⟨42, _⟩ => ⟨S4x4096x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S120_S1x1x120_2 : S120.BroadcastsInDim S1x1x120 (![2] : Fin 1 → Fin S1x1x120.rank)
  bcast_S1x1x120_S4x4096x120_0_1_2 : S1x1x120.BroadcastsInDim S4x4096x120 (![0, 1, 2] : Fin 3 → Fin S4x4096x120.rank)
  bcast_S4x4096x120_S1x4x4096x120_1_2_3 : S4x4096x120.BroadcastsInDim S1x4x4096x120 (![1, 2, 3] : Fin 3 → Fin S1x4x4096x120.rank)
  bcast_S1x120_S1x1x1x120_0_3 : S1x120.BroadcastsInDim S1x1x1x120 (![0, 3] : Fin 2 → Fin S1x1x1x120.rank)
  bcast_S1x1x1x120_S1x4x4096x120_0_1_2_3 : S1x1x1x120.BroadcastsInDim S1x4x4096x120 (![0, 1, 2, 3] : Fin 4 → Fin S1x4x4096x120.rank)
  reducesTo_S1x4x4096x120_S1x4x4096_d3 : S1x4x4096x120.ReducesTo [3] S1x4x4096
  h_S_ : 0 < S_.numel
  bcast_S1x4x4096_S1x4x4096x1_0_1_2 : S1x4x4096.BroadcastsInDim S1x4x4096x1 (![0, 1, 2] : Fin 3 → Fin S1x4x4096x1.rank)
  bcast_S_S1x4x4096x1 : S_.BroadcastsInDim S1x4x4096x1 (![] : Fin 0 → Fin S1x4x4096x1.rank)
  bcast_S1x4x4096x1_S1x4x4096x120_0_1_2_3 : S1x4x4096x1.BroadcastsInDim S1x4x4096x120 (![0, 1, 2, 3] : Fin 4 → Fin S1x4x4096x120.rank)
  reducesTo_S1x4x4096x4096_S4x4096x4096_d0 : S1x4x4096x4096.ReducesTo [0] S4x4096x4096
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S120x1024_S4x4096x120_2_1_01_0_n_n_wf : DotDims.WF S4x4096x1024 S120x1024 S4x4096x120 [2] [1] [0, 1] [0] [] []
  dot_S1x4x4096x120_S1x4x4096x120_S1x4x4096x4096_3_3_2_2_01_01_wf : DotDims.WF S1x4x4096x120 S1x4x4096x120 S1x4x4096x4096 [3] [3] [2] [2] [0, 1] [0, 1]

variable [Facts₀]

def dot_S4x4096x1024_S120x1024_S4x4096x120_2_1_01_0_n_n : DotDims S4x4096x1024 S120x1024 S4x4096x120 where
  lhsContracting := [2]
  rhsContracting := [1]
  lhsNonContracting := [0, 1]
  rhsNonContracting := [0]
  lhsBatch := []
  rhsBatch := []
  wf := dot_S4x4096x1024_S120x1024_S4x4096x120_2_1_01_0_n_n_wf
def dot_S1x4x4096x120_S1x4x4096x120_S1x4x4096x4096_3_3_2_2_01_01 : DotDims S1x4x4096x120 S1x4x4096x120 S1x4x4096x4096 where
  lhsContracting := [3]
  rhsContracting := [3]
  lhsNonContracting := [2]
  rhsNonContracting := [2]
  lhsBatch := [0, 1]
  rhsBatch := [0, 1]
  wf := dot_S1x4x4096x120_S1x4x4096x120_S1x4x4096x4096_3_3_2_2_01_01_wf

class Facts : Prop extends Facts₀ where

variable [Facts]
-- ==== Proof.Kernel.Region0.lean ====
/-
  The first kernel, one grid point at a time, at the buffer contents V the kernel is entered from.

  The kernel has four input windows and one output window. At grid point t the first input's block is a slab of
  2048 rows of one batch of the query array; the other three inputs (the padded, transposed weight matrix and the two
  padded rows) are the same whole array at every point. The body loads the four blocks, computes one value from them
  and stores it over the whole output block, so after the body each input buffer still holds its block and the output
  buffer holds that value. The body also loads the output buffer once before the store; what it reads there is not used.
-/
import proofs.«144623_j5428838662760_2_alg».proof.Proof.Gen.Kernel.Launch
import proofs.«144623_j5428838662760_2_alg».proof.Proof.Gen.Kernel.Skeleton
import proofs.«144623_j5428838662760_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether or not it was fetched there: an
    unfetched window's block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether or not it was fetched there: an
    unfetched window's block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether or not it was fetched there: an
    unfetched window's block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, whether or not it was fetched there: an
    unfetched window's block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rQ : Rect S1x2048x1024 := Rect.unit (s := S1x2048x1024) ![0, 0, 0] S1x2048x1024.size inb_S1x2048x1024_S1x2048x1024_0_0_0
abbrev rW : Rect S1024x128 := Rect.unit (s := S1024x128) ![0, 0] S1024x128.size inb_S1024x128_S1024x128_0_0
abbrev rB : Rect S1x128 := Rect.unit (s := S1x128) ![0, 0] S1x128.size inb_S1x128_S1x128_0_0
abbrev rC : Rect S1x2048x128 := Rect.unit (s := S1x2048x128) ![0, 0, 0] S1x2048x128.size inb_S1x2048x128_S1x2048x128_0_0_0

/-- The output buffer after the body, from the four input blocks: its one store, over the whole block. -/
def out0_4 (x0 : Vec F S1x2048x1024 .f32) (x1 : Vec F S1024x128 .bf16) (x2 : Vec F S1x128 .f32) (x3 : Vec F S1x128 .f32) : Vec F S1x2048x128 .bf16 :=
  View.canon [⟨rC, k0_pay1 (View.ld x0 rQ) (View.ld x1 rW) (View.ld x2 rB) (View.ld x3 rB)⟩]

/-- The one store covers the output block. -/
theorem cover0_4 (p0 : Vec F S1x2048x128 .bf16) (y : S1x2048x128.Idx) :
    ∃ pc ∈ ([⟨rC, p0⟩] : List (View.Piece (Elt F) S1x2048x128 .bf16)), y ∈ pc.1.set :=
  View.cover_of_tiled [⟨rC, p0⟩] S1x2048x128.size (by rfl) y

set_option maxHeartbeats 1000000 in
/-- The body on whole buffers, the inputs' at given contents and the output's at anything, runs to the end leaving the
    inputs as they were and the output at the stored value. -/
theorem sound_kernel0 (c : Dev nD) (E : Set ℕ) (i : grid0.Coords)
    (arg2 : Memref sig .tc .vmem S1x2048x1024 .f32) (harg2 : arg2.IsWhole) (arg3 : Memref sig .tc .vmem S1024x128 .bf16) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x2048x128 .bf16) (harg6 : arg6.IsWhole)
    (x0 : Vec F S1x2048x1024 .f32) (x1 : Vec F S1024x128 .bf16) (x2 : Vec F S1x128 .f32) (x3 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__ctx_kernel i arg2 harg2 arg3 harg3 arg4 harg4 arg5 harg5 arg6 harg6) K := by
  simp only [cc0__ctx_kernel_eq_skeleton]; unfold cc0__ctx_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of the first kernel on core c: its arrays as it finds them; after the body at point t each input's
    buffer at its block and the output's at the stored value of the four blocks; nothing else kept; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the body's run applies; what the kernel does not
    touch passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
/-
  The second kernel, one grid point at a time, at the buffer contents V the kernel is entered from.

  The kernel has two input windows on ONE array (the normalised rows the first kernel wrote) and one output window. At
  grid point t the first input's block is a slab of 512 rows of one batch and the second input's block is all 4096 rows
  of that batch; the body loads both, computes one value from them and stores it over the whole output block. The array
  behind the two inputs is only read, so each input window holds it at half of the full share. The body also loads the
  output buffer once before the store; what it reads there is not used.
-/
import proofs.«144623_j5428838662760_2_alg».proof.Proof.Gen.Kernel.Launch
import proofs.«144623_j5428838662760_2_alg».proof.Proof.Gen.Kernel.Skeleton
import proofs.«144623_j5428838662760_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether or not it was fetched there: an
    unfetched window's block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether or not it was fetched there: an
    unfetched window's block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rA : Rect S1x512x128 := Rect.unit (s := S1x512x128) ![0, 0, 0] S1x512x128.size inb_S1x512x128_S1x512x128_0_0_0
abbrev rK : Rect S1x4096x128 := Rect.unit (s := S1x4096x128) ![0, 0, 0] S1x4096x128.size inb_S1x4096x128_S1x4096x128_0_0_0
abbrev rO : Rect S1x512x4096 := Rect.unit (s := S1x512x4096) ![0, 0, 0] S1x512x4096.size inb_S1x512x4096_S1x512x4096_0_0_0

/-- The output buffer after the body, from the two input blocks: its one store, over the whole block. -/
def out1_2 (x0 : Vec F S1x512x128 .bf16) (x1 : Vec F S1x4096x128 .bf16) : Vec F S1x512x4096 .f32 :=
  View.canon [⟨rO, k1_pay1 (View.ld x0 rA) (View.ld x1 rK)⟩]

/-- The one store covers the output block. -/
theorem cover1_2 (p0 : Vec F S1x512x4096 .f32) (y : S1x512x4096.Idx) :
    ∃ pc ∈ ([⟨rO, p0⟩] : List (View.Piece (Elt F) S1x512x4096 .f32)), y ∈ pc.1.set :=
  View.cover_of_tiled [⟨rO, p0⟩] S1x512x4096.size (by rfl) y

set_option maxHeartbeats 1000000 in
/-- The body on whole buffers, the inputs' at given contents and the output's at anything, runs to the end leaving the
    inputs as they were and the output at the stored value. -/
theorem sound_kernel1 (c : Dev nD) (E : Set ℕ) (i : grid1.Coords)
    (arg2 : Memref sig .tc .vmem S1x512x128 .bf16) (harg2 : arg2.IsWhole) (arg3 : Memref sig .tc .vmem S1x4096x128 .bf16) (harg3 : arg3.IsWhole)
    (arg4 : Memref sig .tc .vmem S1x512x4096 .f32) (harg4 : arg4.IsWhole)
    (x0 : Vec F S1x512x128 .bf16) (x1 : Vec F S1x4096x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__scores_kernel i arg2 harg2 arg3 harg3 arg4 harg4) K := by
  simp only [cc1__scores_kernel_eq_skeleton]; unfold cc1__scores_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second kernel on core c: its arrays as it finds them; after the body at point t each input's
    buffer at its block and the output's at the stored value of the two blocks; the array the two inputs read is held
    half by each; nothing else kept; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's run applies; what the kernel does not
    touch passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Seg0.lean ====
/-
  The buffer contents between the items of the program, and the first kernel as one item.

  Before the first kernel the host operations have built the padded parameters; the first kernel changes one array (its
  output, the normalised rows) and the second kernel changes one array (its output, the result). Every other buffer
  keeps what it held, so the arguments end as launched.
-/
import proofs.«144623_j5428838662760_2_alg».proof.Proof.Gen.Kernel.Regions
import proofs.«144623_j5428838662760_2_alg».proof.Proof.Kernel.Region0
import proofs.«144623_j5428838662760_2_alg».proof.Proof.Kernel.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The buffer contents the first kernel is entered from. -/
abbrev VA : (c : Dev nD) → (b : Ref sig .tc) → Buf (Elt F) ((c : Thread nD τ).loc b) := fun c b => Gen.V6 m c b

/-- What the first kernel leaves in its output array: every point's block written back. -/
def X6 (c : Dev nD) : Buf (Elt F) ((c : Thread nD τ).loc main_v6) := (dat0 (VA m) c).arrAt 4 cfg0.N

/-- The buffer contents the second kernel is entered from: as before, but for that array. -/
def WB (c : Dev nD) : Valuation τ sig (Elt F) := Function.update (Gen.V6 m c) main_v6 (X6 m c)
abbrev VB : (c : Dev nD) → (b : Ref sig .tc) → Buf (Elt F) ((c : Thread nD τ).loc b) := fun c b => WB m c b

/-- What the second kernel leaves in its output array. -/
def X7 (c : Dev nD) : Buf (Elt F) ((c : Thread nD τ).loc main_v7) := (dat1 (VB m) c).arrAt 2 cfg1.N

/-- The two kernels' results as the contents the items leave. -/
def outs : Gen.Outs (F := F) := fun _ r c =>
  Function.update (Function.update (fun r : Ref sig .tc => (Gen.V6 m c r : Buf (Elt F) ((c : Thread nD τ).loc r))) main_v6 (X6 m c)) main_v7 (X7 m c) r

theorem outs7 (c : Dev nD) : outs m 7 main_v6 c = X6 m c := by
  unfold outs
  rw [Function.update_of_ne (by decide : (main_v6 : Ref sig .tc) ≠ main_v7), Function.update_self]

theorem outs8 (c : Dev nD) : outs m 8 main_v7 c = X7 m c := by
  unfold outs
  rw [Function.update_self]

theorem V7_eq (c : Dev nD) : Gen.V7 m (outs m) c = WB m c := by
  show Function.update (Gen.V6 m c) main_v6 (outs m 7 main_v6 c) = _
  rw [outs7]; rfl

/-- Both kernels' proof data, each at the contents its kernel is entered from. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

abbrev 𝒱₀ : Variants := Variants.none
abbrev L : GSem nD τ sig → Finset Unit := fun _ => ∅
abbrev lv : GSem nD τ sig → Unit → ℕ := fun _ _ => 0

/-- What rides beside the buffers through every item: the core's generator register at some state, and nothing owed. -/
abbrev R (c : Dev nD) : sProp 𝕄 := iprop((∃ r, prngReg c r) ∗ ∃ W, owes (c : Thread nD τ) (0 : CellTallies nD τ sig Unit) W)

theorem hF0 (c : Dev nD) : ∀ w : Fin 5, (dat0 (VA m) c).arrAt w cfg0.N = Gen.V7 m (outs m) c (Pipeline.arrRef spec0 w)
  | 0 => ((dat0 (VA m) c).arrAt_in 0 rfl _).trans ((A_eq0 (VA m) c 0).trans (by
      rw [V7_eq]; unfold WB
      show _ = Function.update (Gen.V6 m c) (Proc.devRef .tc main_v6) (X6 m c) (Proc.devRef .tc main_arg0)
      rw [Function.update_of_ne (StableHlo.devRef_ne_of_ne (by decide : (main_arg0 : Ref sig .tc) ≠ main_v6))]))
  | 1 => ((dat0 (VA m) c).arrAt_in 1 rfl _).trans ((A_eq0 (VA m) c 1).trans (by
      rw [V7_eq]; unfold WB
      show _ = Function.update (Gen.V6 m c) (Proc.devRef .tc main_v6) (X6 m c) (Proc.devRef .tc main_v2)
      rw [Function.update_of_ne (StableHlo.devRef_ne_of_ne (by decide : (main_v2 : Ref sig .tc) ≠ main_v6))]))
  | 2 => ((dat0 (VA m) c).arrAt_in 2 rfl _).trans ((A_eq0 (VA m) c 2).trans (by
      rw [V7_eq]; unfold WB
      show _ = Function.update (Gen.V6 m c) (Proc.devRef .tc main_v6) (X6 m c) (Proc.devRef .tc main_v4)
      rw [Function.update_of_ne (StableHlo.devRef_ne_of_ne (by decide : (main_v4 : Ref sig .tc) ≠ main_v6))]))
  | 3 => ((dat0 (VA m) c).arrAt_in 3 rfl _).trans ((A_eq0 (VA m) c 3).trans (by
      rw [V7_eq]; unfold WB
      show _ = Function.update (Gen.V6 m c) (Proc.devRef .tc main_v6) (X6 m c) (Proc.devRef .tc main_v5)
      rw [Function.update_of_ne (StableHlo.devRef_ne_of_ne (by decide : (main_v5 : Ref sig .tc) ≠ main_v6))]))
  | 4 => by
      rw [V7_eq]; unfold WB
      show _ = Function.update (Gen.V6 m c) (Proc.devRef .tc main_v6) (X6 m c) (Proc.devRef .tc main_v6)
      rw [Function.update_self]; rfl
  | ⟨_ + 5, h⟩ => absurd h (by omega)

theorem hrest0 (c : Dev nD) : ∀ b, b ∉ Finset.univ.image (Pipeline.arrRef spec0) → Gen.V7 m (outs m) c b = VA m c b := fun b hb =>
  Gen.V7_of m (outs m) c b (by
    intro h
    rw [List.mem_singleton] at h
    exact hb (Finset.mem_image.mpr ⟨4, Finset.mem_univ _, h.symm⟩))

set_option backward.isDefEq.respectTransparency.types false in
/-- The first kernel as an item: entered from every unscoped buffer at the contents the host operations left, left with
    its output array at what its points wrote back and every other buffer as entered. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V6 m c) ∗ R c)
  post c := iprop(StableHlo.held (c : Thread nD τ) (Pipeline.ucRefs τ sig) (Gen.V7 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (fun b => Gen.V7 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg1.lean ====
/-
  The second kernel as one item of the program.

  Its two input windows read ONE array, the normalised rows the first kernel wrote. On entry that array's buffer, held
  whole, is split into two halves of its share, one per input window; the output array is handed over whole; every other
  unscoped buffer bypasses the kernel. On exit the two halves are joined again — the inputs only read the array, so both
  halves still hold what was handed in — and the output array holds what the points wrote back.
-/
import proofs.«144623_j5428838662760_2_alg».proof.Proof.Kernel.Seg0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem img1 : Finset.univ.image (Pipeline.arrRef spec1) = ({main_v6, main_v7} : Finset (Ref sig .tc)) := by decide

/-- The second kernel's arrays, window by window: the array the two inputs read held half by each, the output's whole. -/
theorem arrays1_eq (c : Dev nD) (A : (w : Fin cfg1.W) → Buf (Elt F) ((cfg1.win w).arr.view.loc (c : Thread nD τ))) :
    ((pdats m 1 c).arrays A : sProp 𝕄)
      = iprop((((c : Thread nD τ).loc main_v6) ↦{fullShare.left} A 0) ∗ (((c : Thread nD τ).loc main_v6) ↦{fullShare.right} A 1)
          ∗ (((c : Thread nD τ).loc main_v7) ↦{fullShare} A 2)) := by
  unfold Pipeline.Dat.arrays
  rw [bigSep_W1]
  have h0 : ((cfgs 1).win 0).arr.view.set = Finset.univ := (arr_whole1 0).set_eq_univ
  have h1 : ((cfgs 1).win 1).arr.view.set = Finset.univ := (arr_whole1 1).set_eq_univ
  have h2 : ((cfgs 1).win 2).arr.view.set = Finset.univ := (arr_whole1 2).set_eq_univ
  have s0 : (pdats m 1 c).share 0 = fullShare.left := rfl
  have s1 : (pdats m 1 c).share 1 = fullShare.right := rfl
  have s2 : (pdats m 1 c).share 2 = fullShare := rfl
  rw [h0, h1, h2, s0, s1, s2]
  rfl

/-- The buffers behind the second kernel's windows are two: the array its inputs read and its output's. -/
theorem arrBufs1_eq (c : Dev nD) (V : (b : Ref sig .tc) → Buf (Elt F) ((c : Thread nD τ).loc b)) :
    (Pipeline.arrBufs (Ix := Unit) (Name := ℕ) (U := UR sig nD τ) (Lvl := ℕ) (cfgs 1).spec c V : sProp 𝕄)
      = iprop((((c : Thread nD τ).loc main_v6) ↦{fullShare} V main_v6) ∗ (((c : Thread nD τ).loc main_v7) ↦{fullShare} V main_v7)) := by
  unfold Pipeline.arrBufs
  rw [show Finset.univ.image (Pipeline.arrRef (cfgs 1).spec) = ({main_v6, main_v7} : Finset (Ref sig .tc)) from img1,
    bigSep_insert (by decide), bigSep_singleton]
  rfl

/-- ENTRY: the core's unscoped buffers at the contents the second kernel is entered from are its arrays — the array its
    two inputs read split in halves — and the unscoped rest. -/
theorem entry1 (c : Dev nD) :
    (unscopedBufs (Ix := Unit) (Name := ℕ) (U := UR sig nD τ) (Lvl := ℕ) c (VB m c) : sProp 𝕄)
      ⊢ iprop((pdats m 1 c).arrays ((pdats m 1 c).arrAt · 0) ∗ Pipeline.unscopedRest spec1 c (VB m c)) := by
  rw [Pipeline.unscopedBufs_split₀ cfgs 1 winFacts₀1.arr_unscoped c (VB m c), arrays1_eq, arrBufs1_eq]
  iintro ⟨⟨H6, H7⟩, Hrest⟩
  ihave H6' := (pointsTo_share (PosShare.mem_left_op_right fullShare)).1 $$ H6
  icases H6' with ⟨H6l, H6r⟩
  isplitr [Hrest]
  · isplitl [H6l]; · iexact H6l
    isplitl [H6r]; · iexact H6r
    iexact H7
  iexact Hrest

/-- EXIT: the second kernel's arrays at contents A and the unscoped rest as entered are the core's unscoped buffers at
    any contents that have the arrays at A and agree with the entry contents off them. -/
theorem exit1 (c : Dev nD) (V' : (b : Ref sig .tc) → Buf (Elt F) ((c : Thread nD τ).loc b))
    (A : (w : Fin cfg1.W) → Buf (Elt F) ((cfg1.win w).arr.view.loc (c : Thread nD τ)))
    (h0 : A 0 = V' main_v6) (h1 : A 1 = V' main_v6) (h2 : A 2 = V' main_v7)
    (hrest : ∀ b, b ∉ Finset.univ.image (Pipeline.arrRef spec1) → V' b = VB m c b) :
    iprop((pdats m 1 c).arrays A ∗ Pipeline.unscopedRest (Ix := Unit) (Name := ℕ) (U := UR sig nD τ) (Lvl := ℕ) spec1 c (VB m c))
      ⊢ (unscopedBufs c V' : sProp 𝕄) := by
  rw [Pipeline.unscopedBufs_split₀ cfgs 1 winFacts₀1.arr_unscoped c V', arrays1_eq, h0, h1, h2, arrBufs1_eq]
  have hr : (Pipeline.unscopedRest (Ix := Unit) (Name := ℕ) (U := UR sig nD τ) (Lvl := ℕ) spec1 c (VB m c) : sProp 𝕄)
      = Pipeline.unscopedRest spec1 c V' := by
    unfold Pipeline.unscopedRest
    exact bigSep_congr fun b hb => by rw [hrest b (Finset.mem_sdiff.mp hb).2]
  rw [hr]
  iintro ⟨⟨H6l, H6r, H7⟩, Hrest⟩
  isplitr [Hrest]
  · isplitl [H6l H6r]
    · iapply (pointsTo_share (PosShare.mem_left_op_right fullShare)).2
      isplitl [H6l]; · iexact H6l
      iexact H6r
    iexact H7
  iexact Hrest

/-- After the second kernel the array its inputs read is as entered, -/
theorem V8_v6 (c : Dev nD) : Gen.V8 m (outs m) c main_v6 = WB m c main_v6 :=
  (Gen.V8_of m (outs m) c main_v6 (by decide)).trans (by rw [V7_eq])

/-- its output array is what its points wrote back, -/
theorem V8_v7 (c : Dev nD) : Gen.V8 m (outs m) c main_v7 = X7 m c := by
  show Function.update (Gen.V7 m (outs m) c) (Proc.devRef .tc main_v7) (outs m 8 main_v7 c) (Proc.devRef .tc main_v7) = _
  rw [Function.update_self, outs8]

/-- and every other buffer is as entered. -/
theorem hrest1 (c : Dev nD) : ∀ b, b ∉ Finset.univ.image (Pipeline.arrRef spec1) → Gen.V8 m (outs m) c b = VB m c b := fun b hb =>
  (Gen.V8_of m (outs m) c b (by
    intro h
    rw [List.mem_singleton] at h
    exact hb (Finset.mem_image.mpr ⟨2, Finset.mem_univ _, h.symm⟩))).trans (by rw [V7_eq])

theorem hA1_0 (c : Dev nD) : (dat1 (VB m) c).arrAt 0 cfg1.N = Gen.V8 m (outs m) c main_v6 :=
  ((dat1 (VB m) c).arrAt_in 0 rfl _).trans ((A_eq1 (VB m) c 0).trans (V8_v6 m c).symm)
theorem hA1_1 (c : Dev nD) : (dat1 (VB m) c).arrAt 1 cfg1.N = Gen.V8 m (outs m) c main_v6 :=
  ((dat1 (VB m) c).arrAt_in 1 rfl _).trans ((A_eq1 (VB m) c 1).trans (V8_v6 m c).symm)
theorem hA1_2 (c : Dev nD) : (dat1 (VB m) c).arrAt 2 cfg1.N = Gen.V8 m (outs m) c main_v7 :=
  (V8_v7 m c).symm

set_option backward.isDefEq.respectTransparency.types false in
/-- The second kernel as an item: entered from every unscoped buffer at the contents the first kernel left, left with
    its output array at what its points wrote back and every other buffer as entered. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (WB m c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c (fun b => Gen.V8 m (outs m) c b) ((pdats m 1 c).arrAt · cfg1.N) (hA1_0 m c) (hA1_1 m c) (hA1_2 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Frame.lean ====
/-
  The program's run and its frame.

  From any launch memory, every weakly fair execution of the program terminates without a fault; at the end the result
  array holds what the second kernel's points wrote back, and each of the five arguments holds what it held at launch.
  Nothing is owed between cores, no level is assigned, and the only thing riding beside the buffers is the core's
  generator register.
-/
import proofs.«144623_j5428838662760_2_alg».proof.Proof.Kernel.RunCond
import proofs.«144623_j5428838662760_2_alg».proof.Proof.Kernel.Seg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
/-- The run, with the result array named. -/
theorem run : θ_run defs (onTc (τ := τ) (main (F := F))) ⟨m, fun _ => 0, ρ⟩ (fun r => ∀ c : Dev nD,
      r.2.mem ((c.tc : Thread nD τ).loc main_v7) = X7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (outs8 m c), (h c).2⟩)
    (run_cond m (EP := emb₁) (ι := ()) (𝒱₀ := 𝒱₀) (L := L) (lv := lv) (hL := fun _ _ => rfl) (ρ := ρ) (outs := outs m) (pdats := pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => R c)
      (hE0 := by
        refine Pipeline.initEach L lv fun c => ?_
        iintro ⟨⟨-, HO, -, Hp, -⟩, -⟩
        imodintro
        isplitl [Hp]; · iexists _; iexact Hp
        iexists ∅; iexact HO)
      (hE2 := fun c => by iintro ⟨-, HO⟩; iexact HO)
      (R0 := reg0 m) (hpre0 := fun c => .rfl) (hpost0 := fun c => .rfl)
      (R1 := reg1 m) (hpre1 := fun c => by rw [V7_eq]; exact .rfl) (hpost1 := fun c => .rfl))

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run m ρ)

end Cert.Kernel.Hand

end
-- ==== Proof.KernelIdeal.Region0.lean ====
/-
  The first kernel, one grid point at a time, at the buffer contents V the kernel is entered from.

  The kernel has four input windows and one output window. At grid point t the first input's block is a slab of
  2048 rows of one batch of the query array; the other three inputs (the padded, transposed weight matrix and the two
  padded rows) are the same whole array at every point. The body loads the four blocks, computes one value from them
  and stores it over the whole output block, so after the body each input buffer still holds its block and the output
  buffer holds that value. The body also loads the output buffer once before the store; what it reads there is not used.
-/
import proofs.«144623_j5428838662760_2_alg».proof.Proof.Gen.KernelIdeal.Launch
import proofs.«144623_j5428838662760_2_alg».proof.Proof.Gen.KernelIdeal.Skeleton
import proofs.«144623_j5428838662760_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether or not it was fetched there: an
    unfetched window's block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether or not it was fetched there: an
    unfetched window's block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether or not it was fetched there: an
    unfetched window's block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, whether or not it was fetched there: an
    unfetched window's block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rQ : Rect S1x2048x1024 := Rect.unit (s := S1x2048x1024) ![0, 0, 0] S1x2048x1024.size inb_S1x2048x1024_S1x2048x1024_0_0_0
abbrev rW : Rect S1024x128 := Rect.unit (s := S1024x128) ![0, 0] S1024x128.size inb_S1024x128_S1024x128_0_0
abbrev rB : Rect S1x128 := Rect.unit (s := S1x128) ![0, 0] S1x128.size inb_S1x128_S1x128_0_0
abbrev rC : Rect S1x2048x128 := Rect.unit (s := S1x2048x128) ![0, 0, 0] S1x2048x128.size inb_S1x2048x128_S1x2048x128_0_0_0

/-- The output buffer after the body, from the four input blocks: its one store, over the whole block. -/
def out0_4 (x0 : Vec F S1x2048x1024 .f32) (x1 : Vec F S1024x128 .bf16) (x2 : Vec F S1x128 .f32) (x3 : Vec F S1x128 .f32) : Vec F S1x2048x128 .bf16 :=
  View.canon [⟨rC, k0_pay1 (View.ld x0 rQ) (View.ld x1 rW) (View.ld x2 rB) (View.ld x3 rB)⟩]

/-- The one store covers the output block. -/
theorem cover0_4 (p0 : Vec F S1x2048x128 .bf16) (y : S1x2048x128.Idx) :
    ∃ pc ∈ ([⟨rC, p0⟩] : List (View.Piece (Elt F) S1x2048x128 .bf16)), y ∈ pc.1.set :=
  View.cover_of_tiled [⟨rC, p0⟩] S1x2048x128.size (by rfl) y

set_option maxHeartbeats 1000000 in
/-- The body on whole buffers, the inputs' at given contents and the output's at anything, runs to the end leaving the
    inputs as they were and the output at the stored value. -/
theorem sound_kernel0 (c : Dev nD) (E : Set ℕ) (i : grid0.Coords)
    (arg2 : Memref sig .tc .vmem S1x2048x1024 .f32) (harg2 : arg2.IsWhole) (arg3 : Memref sig .tc .vmem S1024x128 .bf16) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x2048x128 .bf16) (harg6 : arg6.IsWhole)
    (x0 : Vec F S1x2048x1024 .f32) (x1 : Vec F S1024x128 .bf16) (x2 : Vec F S1x128 .f32) (x3 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__ctx_kernel i arg2 harg2 arg3 harg3 arg4 harg4 arg5 harg5 arg6 harg6) K := by
  simp only [cc0__ctx_kernel_eq_skeleton]; unfold cc0__ctx_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of the first kernel on core c: its arrays as it finds them; after the body at point t each input's
    buffer at its block and the output's at the stored value of the four blocks; nothing else kept; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the body's run applies; what the kernel does not
    touch passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
/-
  The second kernel, one grid point at a time, at the buffer contents V the kernel is entered from.

  The kernel has two input windows on ONE array (the normalised rows the first kernel wrote) and one output window. At
  grid point t the first input's block is a slab of 512 rows of one batch and the second input's block is all 4096 rows
  of that batch; the body loads both, computes one value from them and stores it over the whole output block. The array
  behind the two inputs is only read, so each input window holds it at half of the full share. The body also loads the
  output buffer once before the store; what it reads there is not used.
-/
import proofs.«144623_j5428838662760_2_alg».proof.Proof.Gen.KernelIdeal.Launch
import proofs.«144623_j5428838662760_2_alg».proof.Proof.Gen.KernelIdeal.Skeleton
import proofs.«144623_j5428838662760_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether or not it was fetched there: an
    unfetched window's block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether or not it was fetched there: an
    unfetched window's block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rA : Rect S1x512x128 := Rect.unit (s := S1x512x128) ![0, 0, 0] S1x512x128.size inb_S1x512x128_S1x512x128_0_0_0
abbrev rK : Rect S1x4096x128 := Rect.unit (s := S1x4096x128) ![0, 0, 0] S1x4096x128.size inb_S1x4096x128_S1x4096x128_0_0_0
abbrev rO : Rect S1x512x4096 := Rect.unit (s := S1x512x4096) ![0, 0, 0] S1x512x4096.size inb_S1x512x4096_S1x512x4096_0_0_0

/-- The output buffer after the body, from the two input blocks: its one store, over the whole block. -/
def out1_2 (x0 : Vec F S1x512x128 .bf16) (x1 : Vec F S1x4096x128 .bf16) : Vec F S1x512x4096 .f32 :=
  View.canon [⟨rO, k1_pay1 (View.ld x0 rA) (View.ld x1 rK)⟩]

/-- The one store covers the output block. -/
theorem cover1_2 (p0 : Vec F S1x512x4096 .f32) (y : S1x512x4096.Idx) :
    ∃ pc ∈ ([⟨rO, p0⟩] : List (View.Piece (Elt F) S1x512x4096 .f32)), y ∈ pc.1.set :=
  View.cover_of_tiled [⟨rO, p0⟩] S1x512x4096.size (by rfl) y

set_option maxHeartbeats 1000000 in
/-- The body on whole buffers, the inputs' at given contents and the output's at anything, runs to the end leaving the
    inputs as they were and the output at the stored value. -/
theorem sound_kernel1 (c : Dev nD) (E : Set ℕ) (i : grid1.Coords)
    (arg2 : Memref sig .tc .vmem S1x512x128 .bf16) (harg2 : arg2.IsWhole) (arg3 : Memref sig .tc .vmem S1x4096x128 .bf16) (harg3 : arg3.IsWhole)
    (arg4 : Memref sig .tc .vmem S1x512x4096 .f32) (harg4 : arg4.IsWhole)
    (x0 : Vec F S1x512x128 .bf16) (x1 : Vec F S1x4096x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__scores_kernel i arg2 harg2 arg3 harg3 arg4 harg4) K := by
  simp only [cc1__scores_kernel_eq_skeleton]; unfold cc1__scores_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second kernel on core c: its arrays as it finds them; after the body at point t each input's
    buffer at its block and the output's at the stored value of the two blocks; the array the two inputs read is held
    half by each; nothing else kept; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's run applies; what the kernel does not
    touch passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Seg0.lean ====
/-
  The buffer contents between the items of the program, and the first kernel as one item.

  Before the first kernel the host operations have built the padded parameters; the first kernel changes one array (its
  output, the normalised rows) and the second kernel changes one array (its output, the result). Every other buffer
  keeps what it held, so the arguments end as launched.
-/
import proofs.«144623_j5428838662760_2_alg».proof.Proof.Gen.KernelIdeal.Regions
import proofs.«144623_j5428838662760_2_alg».proof.Proof.KernelIdeal.Region0
import proofs.«144623_j5428838662760_2_alg».proof.Proof.KernelIdeal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The buffer contents the first kernel is entered from. -/
abbrev VA : (c : Dev nD) → (b : Ref sig .tc) → Buf (Elt F) ((c : Thread nD τ).loc b) := fun c b => Gen.V6 m c b

/-- What the first kernel leaves in its output array: every point's block written back. -/
def X6 (c : Dev nD) : Buf (Elt F) ((c : Thread nD τ).loc main_v6) := (dat0 (VA m) c).arrAt 4 cfg0.N

/-- The buffer contents the second kernel is entered from: as before, but for that array. -/
def WB (c : Dev nD) : Valuation τ sig (Elt F) := Function.update (Gen.V6 m c) main_v6 (X6 m c)
abbrev VB : (c : Dev nD) → (b : Ref sig .tc) → Buf (Elt F) ((c : Thread nD τ).loc b) := fun c b => WB m c b

/-- What the second kernel leaves in its output array. -/
def X7 (c : Dev nD) : Buf (Elt F) ((c : Thread nD τ).loc main_v7) := (dat1 (VB m) c).arrAt 2 cfg1.N

/-- The two kernels' results as the contents the items leave. -/
def outs : Gen.Outs (F := F) := fun _ r c =>
  Function.update (Function.update (fun r : Ref sig .tc => (Gen.V6 m c r : Buf (Elt F) ((c : Thread nD τ).loc r))) main_v6 (X6 m c)) main_v7 (X7 m c) r

theorem outs7 (c : Dev nD) : outs m 7 main_v6 c = X6 m c := by
  unfold outs
  rw [Function.update_of_ne (by decide : (main_v6 : Ref sig .tc) ≠ main_v7), Function.update_self]

theorem outs8 (c : Dev nD) : outs m 8 main_v7 c = X7 m c := by
  unfold outs
  rw [Function.update_self]

theorem V7_eq (c : Dev nD) : Gen.V7 m (outs m) c = WB m c := by
  show Function.update (Gen.V6 m c) main_v6 (outs m 7 main_v6 c) = _
  rw [outs7]; rfl

/-- Both kernels' proof data, each at the contents its kernel is entered from. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

abbrev 𝒱₀ : Variants := Variants.none
abbrev L : GSem nD τ sig → Finset Unit := fun _ => ∅
abbrev lv : GSem nD τ sig → Unit → ℕ := fun _ _ => 0

/-- What rides beside the buffers through every item: the core's generator register at some state, and nothing owed. -/
abbrev R (c : Dev nD) : sProp 𝕄 := iprop((∃ r, prngReg c r) ∗ ∃ W, owes (c : Thread nD τ) (0 : CellTallies nD τ sig Unit) W)

theorem hF0 (c : Dev nD) : ∀ w : Fin 5, (dat0 (VA m) c).arrAt w cfg0.N = Gen.V7 m (outs m) c (Pipeline.arrRef spec0 w)
  | 0 => ((dat0 (VA m) c).arrAt_in 0 rfl _).trans ((A_eq0 (VA m) c 0).trans (by
      rw [V7_eq]; unfold WB
      show _ = Function.update (Gen.V6 m c) (Proc.devRef .tc main_v6) (X6 m c) (Proc.devRef .tc main_arg0)
      rw [Function.update_of_ne (StableHlo.devRef_ne_of_ne (by decide : (main_arg0 : Ref sig .tc) ≠ main_v6))]))
  | 1 => ((dat0 (VA m) c).arrAt_in 1 rfl _).trans ((A_eq0 (VA m) c 1).trans (by
      rw [V7_eq]; unfold WB
      show _ = Function.update (Gen.V6 m c) (Proc.devRef .tc main_v6) (X6 m c) (Proc.devRef .tc main_v2)
      rw [Function.update_of_ne (StableHlo.devRef_ne_of_ne (by decide : (main_v2 : Ref sig .tc) ≠ main_v6))]))
  | 2 => ((dat0 (VA m) c).arrAt_in 2 rfl _).trans ((A_eq0 (VA m) c 2).trans (by
      rw [V7_eq]; unfold WB
      show _ = Function.update (Gen.V6 m c) (Proc.devRef .tc main_v6) (X6 m c) (Proc.devRef .tc main_v4)
      rw [Function.update_of_ne (StableHlo.devRef_ne_of_ne (by decide : (main_v4 : Ref sig .tc) ≠ main_v6))]))
  | 3 => ((dat0 (VA m) c).arrAt_in 3 rfl _).trans ((A_eq0 (VA m) c 3).trans (by
      rw [V7_eq]; unfold WB
      show _ = Function.update (Gen.V6 m c) (Proc.devRef .tc main_v6) (X6 m c) (Proc.devRef .tc main_v5)
      rw [Function.update_of_ne (StableHlo.devRef_ne_of_ne (by decide : (main_v5 : Ref sig .tc) ≠ main_v6))]))
  | 4 => by
      rw [V7_eq]; unfold WB
      show _ = Function.update (Gen.V6 m c) (Proc.devRef .tc main_v6) (X6 m c) (Proc.devRef .tc main_v6)
      rw [Function.update_self]; rfl
  | ⟨_ + 5, h⟩ => absurd h (by omega)

theorem hrest0 (c : Dev nD) : ∀ b, b ∉ Finset.univ.image (Pipeline.arrRef spec0) → Gen.V7 m (outs m) c b = VA m c b := fun b hb =>
  Gen.V7_of m (outs m) c b (by
    intro h
    rw [List.mem_singleton] at h
    exact hb (Finset.mem_image.mpr ⟨4, Finset.mem_univ _, h.symm⟩))

set_option backward.isDefEq.respectTransparency.types false in
/-- The first kernel as an item: entered from every unscoped buffer at the contents the host operations left, left with
    its output array at what its points wrote back and every other buffer as entered. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V6 m c) ∗ R c)
  post c := iprop(StableHlo.held (c : Thread nD τ) (Pipeline.ucRefs τ sig) (Gen.V7 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (fun b => Gen.V7 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg1.lean ====
/-
  The second kernel as one item of the program.

  Its two input windows read ONE array, the normalised rows the first kernel wrote. On entry that array's buffer, held
  whole, is split into two halves of its share, one per input window; the output array is handed over whole; every other
  unscoped buffer bypasses the kernel. On exit the two halves are joined again — the inputs only read the array, so both
  halves still hold what was handed in — and the output array holds what the points wrote back.
-/
import proofs.«144623_j5428838662760_2_alg».proof.Proof.KernelIdeal.Seg0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem img1 : Finset.univ.image (Pipeline.arrRef spec1) = ({main_v6, main_v7} : Finset (Ref sig .tc)) := by decide

/-- The second kernel's arrays, window by window: the array the two inputs read held half by each, the output's whole. -/
theorem arrays1_eq (c : Dev nD) (A : (w : Fin cfg1.W) → Buf (Elt F) ((cfg1.win w).arr.view.loc (c : Thread nD τ))) :
    ((pdats m 1 c).arrays A : sProp 𝕄)
      = iprop((((c : Thread nD τ).loc main_v6) ↦{fullShare.left} A 0) ∗ (((c : Thread nD τ).loc main_v6) ↦{fullShare.right} A 1)
          ∗ (((c : Thread nD τ).loc main_v7) ↦{fullShare} A 2)) := by
  unfold Pipeline.Dat.arrays
  rw [bigSep_W1]
  have h0 : ((cfgs 1).win 0).arr.view.set = Finset.univ := (arr_whole1 0).set_eq_univ
  have h1 : ((cfgs 1).win 1).arr.view.set = Finset.univ := (arr_whole1 1).set_eq_univ
  have h2 : ((cfgs 1).win 2).arr.view.set = Finset.univ := (arr_whole1 2).set_eq_univ
  have s0 : (pdats m 1 c).share 0 = fullShare.left := rfl
  have s1 : (pdats m 1 c).share 1 = fullShare.right := rfl
  have s2 : (pdats m 1 c).share 2 = fullShare := rfl
  rw [h0, h1, h2, s0, s1, s2]
  rfl

/-- The buffers behind the second kernel's windows are two: the array its inputs read and its output's. -/
theorem arrBufs1_eq (c : Dev nD) (V : (b : Ref sig .tc) → Buf (Elt F) ((c : Thread nD τ).loc b)) :
    (Pipeline.arrBufs (Ix := Unit) (Name := ℕ) (U := UR sig nD τ) (Lvl := ℕ) (cfgs 1).spec c V : sProp 𝕄)
      = iprop((((c : Thread nD τ).loc main_v6) ↦{fullShare} V main_v6) ∗ (((c : Thread nD τ).loc main_v7) ↦{fullShare} V main_v7)) := by
  unfold Pipeline.arrBufs
  rw [show Finset.univ.image (Pipeline.arrRef (cfgs 1).spec) = ({main_v6, main_v7} : Finset (Ref sig .tc)) from img1,
    bigSep_insert (by decide), bigSep_singleton]
  rfl

/-- ENTRY: the core's unscoped buffers at the contents the second kernel is entered from are its arrays — the array its
    two inputs read split in halves — and the unscoped rest. -/
theorem entry1 (c : Dev nD) :
    (unscopedBufs (Ix := Unit) (Name := ℕ) (U := UR sig nD τ) (Lvl := ℕ) c (VB m c) : sProp 𝕄)
      ⊢ iprop((pdats m 1 c).arrays ((pdats m 1 c).arrAt · 0) ∗ Pipeline.unscopedRest spec1 c (VB m c)) := by
  rw [Pipeline.unscopedBufs_split₀ cfgs 1 winFacts₀1.arr_unscoped c (VB m c), arrays1_eq, arrBufs1_eq]
  iintro ⟨⟨H6, H7⟩, Hrest⟩
  ihave H6' := (pointsTo_share (PosShare.mem_left_op_right fullShare)).1 $$ H6
  icases H6' with ⟨H6l, H6r⟩
  isplitr [Hrest]
  · isplitl [H6l]; · iexact H6l
    isplitl [H6r]; · iexact H6r
    iexact H7
  iexact Hrest

/-- EXIT: the second kernel's arrays at contents A and the unscoped rest as entered are the core's unscoped buffers at
    any contents that have the arrays at A and agree with the entry contents off them. -/
theorem exit1 (c : Dev nD) (V' : (b : Ref sig .tc) → Buf (Elt F) ((c : Thread nD τ).loc b))
    (A : (w : Fin cfg1.W) → Buf (Elt F) ((cfg1.win w).arr.view.loc (c : Thread nD τ)))
    (h0 : A 0 = V' main_v6) (h1 : A 1 = V' main_v6) (h2 : A 2 = V' main_v7)
    (hrest : ∀ b, b ∉ Finset.univ.image (Pipeline.arrRef spec1) → V' b = VB m c b) :
    iprop((pdats m 1 c).arrays A ∗ Pipeline.unscopedRest (Ix := Unit) (Name := ℕ) (U := UR sig nD τ) (Lvl := ℕ) spec1 c (VB m c))
      ⊢ (unscopedBufs c V' : sProp 𝕄) := by
  rw [Pipeline.unscopedBufs_split₀ cfgs 1 winFacts₀1.arr_unscoped c V', arrays1_eq, h0, h1, h2, arrBufs1_eq]
  have hr : (Pipeline.unscopedRest (Ix := Unit) (Name := ℕ) (U := UR sig nD τ) (Lvl := ℕ) spec1 c (VB m c) : sProp 𝕄)
      = Pipeline.unscopedRest spec1 c V' := by
    unfold Pipeline.unscopedRest
    exact bigSep_congr fun b hb => by rw [hrest b (Finset.mem_sdiff.mp hb).2]
  rw [hr]
  iintro ⟨⟨H6l, H6r, H7⟩, Hrest⟩
  isplitr [Hrest]
  · isplitl [H6l H6r]
    · iapply (pointsTo_share (PosShare.mem_left_op_right fullShare)).2
      isplitl [H6l]; · iexact H6l
      iexact H6r
    iexact H7
  iexact Hrest

/-- After the second kernel the array its inputs read is as entered, -/
theorem V8_v6 (c : Dev nD) : Gen.V8 m (outs m) c main_v6 = WB m c main_v6 :=
  (Gen.V8_of m (outs m) c main_v6 (by decide)).trans (by rw [V7_eq])

/-- its output array is what its points wrote back, -/
theorem V8_v7 (c : Dev nD) : Gen.V8 m (outs m) c main_v7 = X7 m c := by
  show Function.update (Gen.V7 m (outs m) c) (Proc.devRef .tc main_v7) (outs m 8 main_v7 c) (Proc.devRef .tc main_v7) = _
  rw [Function.update_self, outs8]

/-- and every other buffer is as entered. -/
theorem hrest1 (c : Dev nD) : ∀ b, b ∉ Finset.univ.image (Pipeline.arrRef spec1) → Gen.V8 m (outs m) c b = VB m c b := fun b hb =>
  (Gen.V8_of m (outs m) c b (by
    intro h
    rw [List.mem_singleton] at h
    exact hb (Finset.mem_image.mpr ⟨2, Finset.mem_univ _, h.symm⟩))).trans (by rw [V7_eq])

theorem hA1_0 (c : Dev nD) : (dat1 (VB m) c).arrAt 0 cfg1.N = Gen.V8 m (outs m) c main_v6 :=
  ((dat1 (VB m) c).arrAt_in 0 rfl _).trans ((A_eq1 (VB m) c 0).trans (V8_v6 m c).symm)
theorem hA1_1 (c : Dev nD) : (dat1 (VB m) c).arrAt 1 cfg1.N = Gen.V8 m (outs m) c main_v6 :=
  ((dat1 (VB m) c).arrAt_in 1 rfl _).trans ((A_eq1 (VB m) c 1).trans (V8_v6 m c).symm)
theorem hA1_2 (c : Dev nD) : (dat1 (VB m) c).arrAt 2 cfg1.N = Gen.V8 m (outs m) c main_v7 :=
  (V8_v7 m c).symm

set_option backward.isDefEq.respectTransparency.types false in
/-- The second kernel as an item: entered from every unscoped buffer at the contents the first kernel left, left with
    its output array at what its points wrote back and every other buffer as entered. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (WB m c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c (fun b => Gen.V8 m (outs m) c b) ((pdats m 1 c).arrAt · cfg1.N) (hA1_0 m c) (hA1_1 m c) (hA1_2 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Frame.lean ====
/-
  The program's run and its frame.

  From any launch memory, every weakly fair execution of the program terminates without a fault; at the end the result
  array holds what the second kernel's points wrote back, and each of the five arguments holds what it held at launch.
  Nothing is owed between cores, no level is assigned, and the only thing riding beside the buffers is the core's
  generator register.
-/
import proofs.«144623_j5428838662760_2_alg».proof.Proof.KernelIdeal.RunCond
import proofs.«144623_j5428838662760_2_alg».proof.Proof.KernelIdeal.Seg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
/-- The run, with the result array named. -/
theorem run : θ_run defs (onTc (τ := τ) (main (F := F))) ⟨m, fun _ => 0, ρ⟩ (fun r => ∀ c : Dev nD,
      r.2.mem ((c.tc : Thread nD τ).loc main_v7) = X7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (outs8 m c), (h c).2⟩)
    (run_cond m (EP := emb₁) (ι := ()) (𝒱₀ := 𝒱₀) (L := L) (lv := lv) (hL := fun _ _ => rfl) (ρ := ρ) (outs := outs m) (pdats := pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => R c)
      (hE0 := by
        refine Pipeline.initEach L lv fun c => ?_
        iintro ⟨⟨-, HO, -, Hp, -⟩, -⟩
        imodintro
        isplitl [Hp]; · iexists _; iexact Hp
        iexists ∅; iexact HO)
      (hE2 := fun c => by iintro ⟨-, HO⟩; iexact HO)
      (R0 := reg0 m) (hpre0 := fun c => .rfl) (hpost0 := fun c => .rfl)
      (R1 := reg1 m) (hpre1 := fun c => by rw [V7_eq]; exact .rfl) (hpost1 := fun c => .rfl))

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run m ρ)

end Cert.KernelIdeal.Hand

end
-- ==== Proof.Spec.lean ====
/-
  The common value of the two programs, as one function of the argument arrays over the extended reals.

  For a batch b and a position s the query row q[b,s,:] (1024 entries) is projected by the 120 rows of W, shifted by
  the bias and scaled entrywise by the weight row:  c[b,s,h] = (Σ_d q[b,s,d]·W[h,d] + bq[h]) · wt[0,h].
  The row is divided by the larger of its Euclidean length and a fixed positive floor:  u[b,s,:] = c / max(√(Σ_h c²), ε).
  The score of positions s and t of one batch is the dot product Σ_h u[b,s,h]·u[b,t,h], and the result is the
  softmax of each row of scores:  out[b,s,t] = exp(σ[s,t] − max_t' σ[s,t']) / Σ_t' exp(σ[s,t'] − max_t'' σ[s,t'']).
  A row maximum is the fold of max from −∞ over the row, a sum is the finite sum over the row.
-/
import Idealize.ShloMosaic.PureOps.Ideal
import Idealize.ShloMosaic.Lib.ValueIdx

noncomputable section

namespace Cert.Spec

open Idealize.ShloMosaic Idealize.ShloMosaic.ValueIdx

/-- The positive floor under a row's length: the value of the single-precision word both programs spell. -/
def eps : EReal := Ideal.ofBits .f32 0x2B8CBCCC#32

/-- One projected, shifted and scaled row: entry h is (Σ_d q d · W h d + bq h) · wt h. -/
def ctx (q : Fin 1024 → EReal) (W : Fin 120 → Fin 1024 → EReal) (bq wt : Fin 120 → EReal) (h : Fin 120) : EReal :=
  ((∑ d : Fin 1024, q d * W h d) + bq h) * wt h

/-- The larger of a row's Euclidean length and the floor. -/
def len (x : Fin 120 → EReal) : EReal := max (Ideal.sqrt (∑ h : Fin 120, x h * x h)) eps

/-- A row divided by that length. -/
def unit (x : Fin 120 → EReal) (h : Fin 120) : EReal := Ideal.div (x h) (len x)

/-- The dot product of two rows. -/
def gram (u v : Fin 120 → EReal) : EReal := ∑ h : Fin 120, u h * v h

/-- The maximum of a row of 4096 scores, folded from −∞. -/
def rowMax (r : Fin 4096 → EReal) : EReal := (Finset.univ : Finset (Fin 4096)).fold max ⊥ r

/-- The softmax of a row of 4096 scores, at one position. -/
def softmaxRow (r : Fin 4096 → EReal) (t : Fin 4096) : EReal :=
  Ideal.div (Ideal.exp (r t - rowMax r)) (∑ t' : Fin 4096, Ideal.exp (r t' - rowMax r))

abbrev SQ : Shape := ⟨3, ![4, 4096, 1024]⟩
abbrev SW : Shape := ⟨2, ![120, 1024]⟩
abbrev SB : Shape := ⟨1, ![120]⟩
abbrev ST : Shape := ⟨2, ![1, 120]⟩
abbrev SO : Shape := ⟨3, ![4, 4096, 4096]⟩

/-- The normalised row of batch b, position s, read off the argument arrays. -/
def row (q : SQ.Idx → EReal) (W : SW.Idx → EReal) (bq : SB.Idx → EReal) (wt : ST.Idx → EReal) (b : Fin 4) (s : Fin 4096) :
    Fin 120 → EReal :=
  unit (ctx (fun d => q (ix3 b s d)) (fun h d => W (ix2 h d)) (fun h => bq (ix1 h)) (fun h => wt (ix2 (0 : Fin 1) h)))

/-- The scores of position s of batch b against every position of that batch. -/
def scores (q : SQ.Idx → EReal) (W : SW.Idx → EReal) (bq : SB.Idx → EReal) (wt : ST.Idx → EReal) (b : Fin 4) (s : Fin 4096) :
    Fin 4096 → EReal :=
  fun t => gram (row q W bq wt b s) (row q W bq wt b t)

/-- The result at batch b, row s, column t. -/
def out (q : SQ.Idx → EReal) (W : SW.Idx → EReal) (bq : SB.Idx → EReal) (wt : ST.Idx → EReal) (b : Fin 4) (s t : Fin 4096) : EReal :=
  softmaxRow (scores q W bq wt b s) t

/-- The whole result array. -/
def G (q : SQ.Idx → EReal) (W : SW.Idx → EReal) (bq : SB.Idx → EReal) (wt : ST.Idx → EReal) : SO.Idx → EReal :=
  fun i => out q W bq wt (i 0) (i 1) (i 2)

theorem G_ix3 (q : SQ.Idx → EReal) (W : SW.Idx → EReal) (bq : SB.Idx → EReal) (wt : ST.Idx → EReal) (b : Fin 4) (s t : Fin 4096) :
    G q W bq wt (ix3 b s t) = out q W bq wt b s t := rfl

end Cert.Spec

end
-- ==== Proof.RefValueA.lean ====
/-
  The reference's first seventeen operations, read at one index of the arrays they write.

  For a batch b, a position s and an entry h the reference projects the query row by the rows of W (a sum over the
  1024 entries of the row), adds the bias, multiplies by the weight row, and divides the resulting row of 120 entries
  by the larger of its Euclidean length and the floor. The intermediate arrays carry a leading axis of extent one
  (the single head); an entry of such an array is read at the index (0, b, s, h). Each lemma below says what one
  operation's array holds at such an index, in the words of the specification: the scaled row is Spec.ctx, the
  normalised row is Spec.row.
-/
import proofs.«144623_j5428838662760_2_alg».proof.Proof.Gen.ReferenceIdeal.Read
import proofs.«144623_j5428838662760_2_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.StableHlo
  Idealize.ShloMosaic.ValueIdx

/-! ## Facts on the extended reals -/

/-- The single-precision word of negative infinity denotes the bottom of the extended reals. -/
theorem ofBits_neg_inf : Ideal.ofBits .f32 0xFF800000#32 = ⊥ := by
  simp [Ideal.ofBits, Ideal.ieee]

/-- Division by one changes nothing, at the infinities too. -/
theorem div_one (x : EReal) : Ideal.div x 1 = x := by
  have h := Ideal.div_coe (y := 1) one_ne_zero x
  rw [EReal.coe_one] at h
  rw [h, _root_.div_one, EReal.coe_one, mul_one]

/-! ## The scaled row and the normalised row -/

variable (q : FVec Ideal S4x4096x1024 .f32) (W : FVec Ideal S120x1024 .f32) (bq : FVec Ideal S120 .f32)
  (wt : FVec Ideal S1x120 .f32)

/-- The projected, shifted and scaled row of batch b, position s, in the specification's words. -/
abbrev ctxRow (b : Fin 4) (s : Fin 4096) : Fin 120 → EReal :=
  Cert.Spec.ctx (fun d => q (ix3 b s d)) (fun h d => W (ix2 h d)) (fun h => bq (ix1 h)) (fun h => wt (ix2 (0 : Fin 1) h))

/-- The product with the weight row, at (0, b, s, h): the projection plus the bias, times the weight. -/
theorem v7_at (b : Fin 4) (s : Fin 4096) (h : Fin 120) :
    val_main_v7 (F := Ideal) q W bq wt (ix4 (0 : Fin 1) b s h) = ctxRow q W bq wt b s h := by
  have e4 : idx_main_v4 (ix4 (0 : Fin 1) b s h) = ix3 b s h :=
    funext fun a => Fin.ext (by match a with | ⟨0, _⟩ => rfl | ⟨1, _⟩ => rfl | ⟨2, _⟩ => rfl)
  have e1 : idx_main_v1 (idx_main_v2 (ix3 b s h)) = ix1 h :=
    funext fun a => Fin.ext (by match a with | ⟨0, _⟩ => rfl)
  have e5 : idx_main_v5 (idx_main_v6 (ix4 (0 : Fin 1) b s h)) = ix2 (0 : Fin 1) h :=
    funext fun a => Fin.ext (by match a with | ⟨0, _⟩ => rfl | ⟨1, _⟩ => rfl)
  have el : ∀ k : Fin 1024, lidx_main_v0 (ix3 b s h) k = ix3 b s k := fun k =>
    funext fun a => Fin.ext (by match a with | ⟨0, _⟩ => rfl | ⟨1, _⟩ => rfl | ⟨2, _⟩ => rfl)
  have er : ∀ k : Fin 1024, ridx_main_v0 (ix3 b s h) k = ix2 h k := fun k =>
    funext fun a => Fin.ext (by match a with | ⟨0, _⟩ => rfl | ⟨1, _⟩ => rfl)
  rw [val_main_v7_apply, val_main_v4_apply, e4, val_main_v3_apply, val_main_v0_apply, val_main_v2_apply,
    val_main_v1_apply, e1, val_main_v6_apply, val_main_v5_apply, e5]
  simp only [el, er]
  rfl

/-- The sum of the squares of the scaled row, at (0, b, s). -/
theorem v9_at (b : Fin 4) (s : Fin 4096) :
    val_main_v9 (F := Ideal) q W bq wt (ix3 (0 : Fin 1) b s)
      = ∑ h : Fin 120, ctxRow q W bq wt b s h * ctxRow q W bq wt b s h := by
  rw [val_main_v9_apply, val_main_cst_apply, Ideal.ofBits_def, Ideal.ofBits_zero_f32, zero_add]
  refine Finset.sum_congr rfl fun k _ => ?_
  have e9 : idx_main_v9 (ix3 (0 : Fin 1) b s) k = ix4 (0 : Fin 1) b s k :=
    funext fun a => Fin.ext (by match a with | ⟨0, _⟩ => rfl | ⟨1, _⟩ => rfl | ⟨2, _⟩ => rfl | ⟨3, _⟩ => rfl)
  rw [e9, val_main_v8_apply, v7_at]
  rfl

/-- The larger of the row's length and the floor, at (0, b, s, 0). -/
theorem v13_at (b : Fin 4) (s : Fin 4096) :
    val_main_v13 (F := Ideal) q W bq wt (ix4 (0 : Fin 1) b s (0 : Fin 1)) = Cert.Spec.len (ctxRow q W bq wt b s) := by
  have e10 : idx_main_v10 (ix4 (0 : Fin 1) b s (0 : Fin 1)) = ix3 (0 : Fin 1) b s :=
    funext fun a => Fin.ext (by match a with | ⟨0, _⟩ => rfl | ⟨1, _⟩ => rfl | ⟨2, _⟩ => rfl)
  rw [val_main_v13_apply, val_main_v11_apply, val_main_v10_apply, e10, v9_at, val_main_v12_apply, val_main_cst_0_apply]
  rfl

/-- The normalised row, at (0, b, s, h): the specification's row. -/
theorem v15_at (b : Fin 4) (s : Fin 4096) (h : Fin 120) :
    val_main_v15 (F := Ideal) q W bq wt (ix4 (0 : Fin 1) b s h) = Cert.Spec.row q W bq wt b s h := by
  have e14 : idx_main_v14 (ix4 (0 : Fin 1) b s h) = ix4 (0 : Fin 1) b s (0 : Fin 1) :=
    funext fun a => Fin.ext (by match a with | ⟨0, _⟩ => rfl | ⟨1, _⟩ => rfl | ⟨2, _⟩ => rfl | ⟨3, _⟩ => rfl)
  rw [val_main_v15_apply, v7_at, val_main_v14_apply, e14, v13_at]
  rfl

end Cert.ReferenceIdeal.RefValue

end
-- ==== Proof.RefValueB.lean ====
/-
  The reference's remaining operations, read at one index, and the whole result as the specification's function.

  The score of positions s and t of batch b is the dot product of their normalised rows; the sum over the single
  head is that one term, and the mean over one head divides it by one. Each row of scores is then turned into
  its softmax: the row's maximum (a fold of max from negative infinity, joined once more with negative infinity),
  the exponentials of the differences, their sum, and the quotient.
-/
import proofs.«144623_j5428838662760_2_alg».proof.Proof.RefValueA
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.StableHlo
  Idealize.ShloMosaic.ValueIdx

variable (q : FVec Ideal S4x4096x1024 .f32) (W : FVec Ideal S120x1024 .f32) (bq : FVec Ideal S120 .f32)
  (wt : FVec Ideal S1x120 .f32)

/-! ## The scores -/

/-- The dot product of two normalised rows of one batch, at (0, b, s, t). -/
theorem v16_at (b : Fin 4) (s t : Fin 4096) :
    val_main_v16 (F := Ideal) q W bq wt (ix4 (0 : Fin 1) b s t) = Cert.Spec.scores q W bq wt b s t := by
  rw [val_main_v16_apply]
  show _ = ∑ k : Fin 120, Cert.Spec.row q W bq wt b s k * Cert.Spec.row q W bq wt b t k
  refine Finset.sum_congr rfl fun k _ => ?_
  have el : lidx_main_v16 (ix4 (0 : Fin 1) b s t) k = ix4 (0 : Fin 1) b s k :=
    funext fun a => Fin.ext (by match a with | ⟨0, _⟩ => rfl | ⟨1, _⟩ => rfl | ⟨2, _⟩ => rfl | ⟨3, _⟩ => rfl)
  have er : ridx_main_v16 (ix4 (0 : Fin 1) b s t) k = ix4 (0 : Fin 1) b t k :=
    funext fun a => Fin.ext (by match a with | ⟨0, _⟩ => rfl | ⟨1, _⟩ => rfl | ⟨2, _⟩ => rfl | ⟨3, _⟩ => rfl)
  rw [el, er, v15_at, v15_at]

/-- The sum over the one head, divided by one: still the score, at (b, s, t). -/
theorem v19_at (b : Fin 4) (s t : Fin 4096) :
    val_main_v19 (F := Ideal) q W bq wt (ix3 b s t) = Cert.Spec.scores q W bq wt b s t := by
  have e17 : idx_main_v17 (ix3 b s t) (0 : Fin 1) = ix4 (0 : Fin 1) b s t :=
    funext fun a => Fin.ext (by match a with | ⟨0, _⟩ => rfl | ⟨1, _⟩ => rfl | ⟨2, _⟩ => rfl | ⟨3, _⟩ => rfl)
  rw [val_main_v19_apply, val_main_v17_apply, val_main_cst_1_apply, Ideal.ofBits_def, Ideal.ofBits_zero_f32, zero_add,
    Fin.sum_univ_one, e17, v16_at, val_main_v18_apply, val_main_cst_2_apply, Ideal.ofBits_def, Ideal.ofBits_one_f32,
    Ideal.hostDivf_def, div_one]

/-! ## The row maximum -/

/-- The reference's maximum over the last axis, at (b, s): the fold of max from negative infinity over the row. -/
theorem v20_at (b : Fin 4) (s : Fin 4096) :
    val_main_v20 (F := Ideal) q W bq wt (ix2 b s) = Cert.Spec.rowMax (Cert.Spec.scores q W bq wt b s) := by
  have hR : S4x4096x4096.Reduces [2] S4x4096 := by decide
  have ef : (val_main_v19 (F := Ideal) q W bq wt ∘ hR.lift (ix2 b s)) = Cert.Spec.scores q W bq wt b s :=
    funext fun (t : Fin 4096) => by
      have e : hR.lift (ix2 b s) t = ix3 b s t :=
        funext fun a => Fin.ext (by match a with | ⟨0, _⟩ => rfl | ⟨1, _⟩ => rfl | ⟨2, _⟩ => rfl)
      show val_main_v19 (F := Ideal) q W bq wt (hR.lift (ix2 b s) t) = _
      rw [e, v19_at]
  unfold val_main_v20
  rw [Host.reduce_eq_fold_single FloatOps.maximumf _ _ reducesTo_S4x4096x4096_S4x4096_d2 hR h_S_ (ix2 b s), ef,
    val_main_cst_3_apply, Ideal.ofBits_def, ofBits_neg_inf]
  rfl

/-- Joined once more with negative infinity, at (b, s): the same maximum. -/
theorem v22_at (b : Fin 4) (s : Fin 4096) :
    val_main_v22 (F := Ideal) q W bq wt (ix2 b s) = Cert.Spec.rowMax (Cert.Spec.scores q W bq wt b s) := by
  rw [val_main_v22_apply, val_main_v21_apply, val_main_cst_4_apply, Ideal.ofBits_def, ofBits_neg_inf, v20_at,
    Ideal.maximumf_def, max_bot_left]

/-! ## The softmax -/

/-- The exponential of a score less its row's maximum, at (b, s, t). -/
theorem v26_at (b : Fin 4) (s t : Fin 4096) :
    val_main_v26 (F := Ideal) q W bq wt (ix3 b s t)
      = Ideal.exp (Cert.Spec.scores q W bq wt b s t - Cert.Spec.rowMax (Cert.Spec.scores q W bq wt b s)) := by
  have e24 : idx_main_v24 (ix3 b s t) = ix3 b s (0 : Fin 1) :=
    funext fun a => Fin.ext (by match a with | ⟨0, _⟩ => rfl | ⟨1, _⟩ => rfl | ⟨2, _⟩ => rfl)
  have e23 : idx_main_v23 (ix3 b s (0 : Fin 1)) = ix2 b s :=
    funext fun a => Fin.ext (by match a with | ⟨0, _⟩ => rfl | ⟨1, _⟩ => rfl)
  rw [val_main_v26_apply, val_main_v25_apply, v19_at, val_main_v24_apply, e24, val_main_v23_apply, e23, v22_at]
  rfl

/-- The sum of a row's exponentials, at (b, s). -/
theorem v27_at (b : Fin 4) (s : Fin 4096) :
    val_main_v27 (F := Ideal) q W bq wt (ix2 b s)
      = ∑ t' : Fin 4096, Ideal.exp (Cert.Spec.scores q W bq wt b s t' - Cert.Spec.rowMax (Cert.Spec.scores q W bq wt b s)) := by
  rw [val_main_v27_apply, val_main_cst_5_apply, Ideal.ofBits_def, Ideal.ofBits_zero_f32, zero_add]
  refine Finset.sum_congr rfl fun k _ => ?_
  have e27 : idx_main_v27 (ix2 b s) k = ix3 b s k :=
    funext fun a => Fin.ext (by match a with | ⟨0, _⟩ => rfl | ⟨1, _⟩ => rfl | ⟨2, _⟩ => rfl)
  rw [e27, v26_at]

/-- The quotient, at (b, s, t): the specification's result there. -/
theorem v30_at (b : Fin 4) (s t : Fin 4096) :
    val_main_v30 (F := Ideal) q W bq wt (ix3 b s t) = Cert.Spec.out q W bq wt b s t := by
  have e29 : idx_main_v29 (ix3 b s t) = ix3 b s (0 : Fin 1) :=
    funext fun a => Fin.ext (by match a with | ⟨0, _⟩ => rfl | ⟨1, _⟩ => rfl | ⟨2, _⟩ => rfl)
  have e28 : idx_main_v28 (ix3 b s (0 : Fin 1)) = ix2 b s :=
    funext fun a => Fin.ext (by match a with | ⟨0, _⟩ => rfl | ⟨1, _⟩ => rfl)
  rw [val_main_v30_apply, v26_at, val_main_v29_apply, e29, val_main_v28_apply, e28, v27_at]
  rfl

/-- The reference's result array is the specification's function of the argument arrays. -/
theorem result_eq : val_main_v30 (F := Ideal) q W bq wt = Cert.Spec.G q W bq wt := by
  funext i
  obtain ⟨b, s, t, rfl⟩ : ∃ (b : Fin 4) (s t : Fin 4096), i = ix3 b s t := ⟨i 0, i 1, i 2, eq_ix3 i⟩
  rw [v30_at]
  rfl

end Cert.ReferenceIdeal.RefValue

end
-- ==== Proof.RefValue.lean ====
/-
  The reference's run, stated with the specification's function.

  Every weakly fair execution of the reference ends with its result array holding the specification's function G of
  the query, projection, bias and weight arrays the run started from, and with all five argument arrays unchanged
  (the key array is an argument the computation never reads). The generated run states the result as the composed
  term of the 38 host operations; that term is the last stage's value, which is G.
-/
import proofs.«144623_j5428838662760_2_alg».proof.Proof.RefValueB

noncomputable section

namespace Cert.ReferenceIdeal.RefValue

open Cert.ReferenceIdeal Cert.ReferenceIdeal.Gen Idealize.ShloMosaic Idealize.ShloMosaic.TcCoe Idealize.SL.Sem

theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v30)
          = Cert.Spec.G (m ((c.tc : Thread nD τ).loc main_arg0)) (m ((c.tc : Thread nD τ).loc main_arg2))
              (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run (Cert.ReferenceIdeal.defs (F := Ideal)) _ _).mono
    (fun _ h c => ⟨(h c).1.trans ((Cert.ReferenceIdeal.Read.val_main_v30_eq (F := Ideal) m c).trans (result_eq _ _ _ _)), (h c).2⟩)
    (Cert.ReferenceIdeal.Value.run (F := Ideal) m ρ)

end Cert.ReferenceIdeal.RefValue

end
-- ==== Proof.PayCtx.lean ====
/-
  The first kernel's block, read at one entry, over the extended reals.

  A block of 2048 query rows (1024 entries each) is multiplied by the 1024 × 128 weight matrix, shifted by the bias
  row and scaled entrywise by the weight row:  c[r,l] = (Σ_d x[r,d]·w[d,l] + b[l]) · t[l].  Each row is then divided
  by the larger of its Euclidean length √(Σ_l c[r,l]²) and a fixed positive floor.  The format changes are the
  identity on extended reals, the row and column broadcasts read one entry, the lane sum is a finite sum over the
  128 lanes, and the matrix product into a zero accumulator is the finite sum over the contracted coordinate.
-/
import proofs.«144623_j5428838662760_2_alg».proof.Proof.Gen.KernelIdeal.Skeleton
import proofs.«144623_j5428838662760_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Cert.KernelIdeal

/-! ## The keepdims column forms -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product of the first kernel -/

theorem ctx_lhs_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide),
    dif_pos (show (0 : Fin S2048x1024.rank) ∈ dot_S2048x1024_S1024x128_S2048x128_1_0_0_1_n_n.lhsNonContracting by decide)]
  rfl
theorem ctx_lhs_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem ctx_rhs_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem ctx_rhs_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide),
    dif_pos (show (1 : Fin S1024x128.rank) ∈ dot_S2048x1024_S1024x128_S2048x128_1_0_0_1_n_n.rhsNonContracting by decide)]
  rfl

/-- The product of a `[2048, 1024]` by a `[1024, 128]` matrix into the zero accumulator reads, at `(r, l)`, the sum over
    the contracted coordinate of the products. -/
theorem matmul_ctx_apply (A : FVec Ideal S2048x1024 .bf16) (B : FVec Ideal S1024x128 .bf16) (r : Fin 2048) (l : Fin 128) :
    matmul (F := Ideal) dot_S2048x1024_S1024x128_S2048x128_1_0_0_1_n_n none A B (constant (F := Ideal) S2048x128 .f32 0x00000000#32) (ix2 r l)
      = ∑ d : Fin 1024, A (ix2 r d) * B (ix2 d l) := by
  show FloatOps.matmul dot_S2048x1024_S1024x128_S2048x128_1_0_0_1_n_n none A B (constant (F := Ideal) S2048x128 .f32 0x00000000#32) (ix2 r l) = _
  rw [Ideal.matmul_constant_zero_apply, ← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 r l)
      ((contrEquiv1 dot_S2048x1024_S1024x128_S2048x128_1_0_0_1_n_n 1024 rfl rfl).symm k) = ix2 r k := funext fun a => Fin.ext (by
    match a with
    | ⟨0, _⟩ => exact ctx_lhs_0 _ _
    | ⟨1, _⟩ => exact (ctx_lhs_1 _ _).trans hk)
  have er : dot_S2048x1024_S1024x128_S2048x128_1_0_0_1_n_n.rhsIdx (ix2 r l)
      ((contrEquiv1 dot_S2048x1024_S1024x128_S2048x128_1_0_0_1_n_n 1024 rfl rfl).symm k) = ix2 k l := funext fun a => Fin.ext (by
    match a with
    | ⟨0, _⟩ => exact (ctx_rhs_0 _ _).trans hk
    | ⟨1, _⟩ => exact ctx_rhs_1 _ _)
  rw [el, er]

/-! ## The lane reductions -/

/-- The sum over the lanes of an `[a, b]` array reads, at row `r`, the sum over the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ l : Fin b, src (ix2 r l) := by
  refine (Ideal.multiReduction_add_single src _ h hφ hacc (ix1 r)).trans ?_
  show ∑ k : Fin b, src (h.lift (ix1 r) k) = _
  refine Finset.sum_congr rfl fun k _ => congrArg src ?_
  funext c
  apply Fin.ext
  match c with
  | ⟨0, _⟩ => rfl
  | ⟨1, _⟩ => rfl

/-! ## The first kernel's payload at an index -/

/-- the unnormalised entry (row r, lane l) of a block -/
def cval (x : FVec Ideal S1x2048x1024 .f32) (w : FVec Ideal S1024x128 .bf16) (b2 t2 : FVec Ideal S1x128 .f32) (r : Fin 2048) (l : Fin 128) : EReal :=
  ((∑ d : Fin 1024, x (ix3 (0 : Fin 1) r d) * w (ix2 d l)) + b2 (ix2 (0 : Fin 1) l)) * t2 (ix2 (0 : Fin 1) l)

/-- The projected, shifted and scaled block as the kernel spells it reads, at `(r, l)`, the unnormalised entry. -/
theorem scaled_apply (x : FVec Ideal S1x2048x1024 .f32) (w : FVec Ideal S1024x128 .bf16) (b2 t2 : FVec Ideal S1x128 .f32)
    (r : Fin 2048) (l : Fin 128) :
    mulf
      (addf
        (matmul (F := Ideal) dot_S2048x1024_S1024x128_S2048x128_1_0_0_1_n_n none
          (truncf .bf16 (shapeCast S2048x1024 x Gen.shapeCasts_S1x2048x1024_S2048x1024) Gen.bitsLt_bf16_f32)
          (shapeCast S1024x128 w Gen.shapeCasts_S1024x128_S1024x128) (constant (F := Ideal) S2048x128 .f32 0x00000000#32))
        (broadcastTo S2048x128 (shapeCast S1x128 b2 Gen.shapeCasts_S1x128_S1x128) Gen.broadcasts_S1x128_S2048x128))
      (broadcastTo S2048x128 (shapeCast S1x128 t2 Gen.shapeCasts_S1x128_S1x128) Gen.broadcasts_S1x128_S2048x128) (ix2 r l)
      = cval x w b2 t2 r l := by
  refine (mulf_apply _ _ _).trans ?_
  unfold cval
  refine congrArg₂ (· * ·) ?_ ?_
  · refine (addf_apply _ _ _).trans ?_
    refine congrArg₂ (· + ·) ?_ ?_
    · refine (matmul_ctx_apply _ _ r l).trans ?_
      refine Finset.sum_congr rfl fun d _ => ?_
      refine congrArg₂ (· * ·) ?_ ?_
      · refine (truncf_apply (φ := .f32) (ψ := .bf16) _ Gen.bitsLt_bf16_f32 _).trans ?_
        exact shapeCast_1ab_ab_apply _ _ r d
      · exact congrFun (shapeCast_self _ _) _
    · refine (broadcastTo_1b_ab_apply _ _ r l).trans ?_
      exact congrFun (shapeCast_self _ _) _
  · refine (broadcastTo_1b_ab_apply _ _ r l).trans ?_
    exact congrFun (shapeCast_self _ _) _

theorem pay_ctx (x : FVec Ideal S1x2048x1024 .f32) (w : FVec Ideal S1024x128 .bf16) (b2 t2 : FVec Ideal S1x128 .f32) (r : Fin 2048) (l : Fin 128) :
    Gen.k0_pay1 (F := Ideal) x w b2 t2 (ix3 (0 : Fin 1) r l)
      = Ideal.div (cval x w b2 t2 r l) (max (Ideal.sqrt (∑ l' : Fin 128, cval x w b2 t2 r l' * cval x w b2 t2 r l')) Cert.Spec.eps) := by
  unfold Gen.k0_pay1
  refine (shapeCast_ab_1ab_apply _ _ (0 : Fin 1) r l).trans ?_
  refine (truncf_apply (φ := .f32) (ψ := .bf16) _ Gen.bitsLt_bf16_f32 _).trans ?_
  refine (divf_apply _ _ _).trans ?_
  refine congrArg₂ Ideal.div ?_ ?_
  · exact scaled_apply x w b2 t2 r l
  · refine (broadcastTo_a1_ab_apply _ _ r l).trans ?_
    refine (maximumf_apply _ _ _).trans ?_
    refine congrArg₂ max ?_ ?_
    · show Ideal.sqrt (shapeCast S2048x1 _ _ (ix2 r (0 : Fin 1))) = _
      refine congrArg Ideal.sqrt ?_
      refine (shapeCast_a_a1_apply _ _ r (0 : Fin 1)).trans ?_
      refine (laneSum_apply _ _ _ _ r).trans ?_
      refine Finset.sum_congr rfl fun l' _ => ?_
      refine (mulf_apply _ _ _).trans ?_
      refine congrArg₂ (· * ·) ?_ ?_
      · exact scaled_apply x w b2 t2 r l'
      · exact scaled_apply x w b2 t2 r l'
    · rfl

end Cert.KernelIdeal.PayValue

end
-- ==== Proof.KernelIdeal.ArrCtx.lean ====
/-
  The array the first kernel leaves, as one function of the buffers it is entered from.

  The first kernel runs over a grid of 4 × 2 points; point t works on batch t / 2 and on the slab t % 2 of 2048 of that
  batch's 4096 rows. At every point the three parameter windows (the padded, transposed weight matrix and the two
  padded rows) are their whole arrays, the query window is the slab's 2048 rows, and what is written back is the slab's
  2048 normalised rows of 128 lanes. A normalised row depends on its own query row and on the parameters only, so
  every point writes its block of ONE function of the arrays: the entry of row (b, s), lane l, is the projected,
  shifted and scaled entry divided by the larger of the row's Euclidean length and the floor. The eight blocks tile
  the array (row s of batch b is in the block of point 2 b + s / 2048), so the array ends holding that function.
-/
import proofs.«144623_j5428838662760_2_alg».proof.Proof.KernelIdeal.Seg0
import proofs.«144623_j5428838662760_2_alg».proof.Proof.Spec
import proofs.«144623_j5428838662760_2_alg».proof.Proof.PayCtx
import Idealize.ShloMosaic.Lib.Pipeline.Value

noncomputable section

namespace Cert.KernelIdeal.HandValue

open Cert.KernelIdeal Cert.KernelIdeal.Gen Cert.KernelIdeal.Hand Cert.KernelIdeal.PayValue
open Idealize.ShloMosaic Idealize.ShloMosaic.TcCoe Idealize.SL.Sem Idealize.ShloMosaic.ValueIdx
open Idealize.ShloMosaic.Pipeline (Dat)

/-! ## Over any buffer contents the kernel is entered from -/

section Any

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the grid: the query window and the output window are at block (t / 2, t % 2, 0), the
    three parameter windows at block (0, 0). -/
theorem idx_facts0 : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 2 ∧ win0_4.index t (1 : Fin 3) = t.val % 2 ∧ win0_4.index t (2 : Fin 3) = 0 :=
  (by decide +kernel : ∀ t : Fin grid0.N, _)

/-- The query block at point t is rows (t % 2) · 2048 … of batch t / 2 of the query array. -/
theorem iblk0_0_apply (c : Dev nD) (t : Fin cfg0.N) (y : S1x2048x1024.Idx) (k : S4x4096x1024.Idx)
    (hk0 : (k 0).val = t.val / 2) (hk1 : (k 1).val = t.val % 2 * 2048 + (y 1).val) (hk2 : (k 2).val = (y 2).val) :
    (iblk0 V c 0 t : Vec Ideal S1x2048x1024 .f32) y = (V c main_arg0 : S4x4096x1024.Idx → EReal) k := by
  obtain ⟨e0, e1, e2, -⟩ := idx_facts0 t
  unfold iblk0
  rw [View.read_apply]
  show V c main_arg0 _ = V c main_arg0 k
  refine congrArg (V c main_arg0) ?_
  funext a; apply Fin.ext
  have h0 : (y 0).val < 1 := (y 0).isLt
  match a with
  | ⟨0, _⟩ => show win0_0.index t (0 : Fin 3) * 1 + 1 * (y 0).val = (k 0).val; rw [e0, hk0]; omega
  | ⟨1, _⟩ => show win0_0.index t (1 : Fin 3) * 2048 + 1 * (y 1).val = (k 1).val; rw [e1, hk1]; omega
  | ⟨2, _⟩ => show win0_0.index t (2 : Fin 3) * 1024 + 1 * (y 2).val = (k 2).val; rw [e2, hk2]; omega

/-- The weight block at every point is the whole padded, transposed weight matrix. -/
theorem iblk0_1_apply (c : Dev nD) (t : Fin cfg0.N) (y : S1024x128.Idx) :
    (iblk0 V c 1 t : Vec Ideal S1024x128 .bf16) y = (V c main_v2 : S1024x128.Idx → EReal) y := by
  obtain ⟨-, -, -, e0, e1, -⟩ := idx_facts0 t
  unfold iblk0
  rw [View.read_apply]
  show V c main_v2 _ = V c main_v2 y
  refine congrArg (V c main_v2) ?_
  funext a; apply Fin.ext
  match a with
  | ⟨0, _⟩ => show win0_1.index t (0 : Fin 2) * 1024 + 1 * (y 0).val = (y 0).val; rw [e0]; omega
  | ⟨1, _⟩ => show win0_1.index t (1 : Fin 2) * 128 + 1 * (y 1).val = (y 1).val; rw [e1]; omega

/-- The bias block at every point is the whole padded bias row. -/
theorem iblk0_2_apply (c : Dev nD) (t : Fin cfg0.N) (y : S1x128.Idx) :
    (iblk0 V c 2 t : Vec Ideal S1x128 .f32) y = (V c main_v4 : S1x128.Idx → EReal) y := by
  obtain ⟨-, -, -, -, -, e0, e1, -⟩ := idx_facts0 t
  unfold iblk0
  rw [View.read_apply]
  show V c main_v4 _ = V c main_v4 y
  refine congrArg (V c main_v4) ?_
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The scale block at every point is the whole padded weight row. -/
theorem iblk0_3_apply (c : Dev nD) (t : Fin cfg0.N) (y : S1x128.Idx) :
    (iblk0 V c 3 t : Vec Ideal S1x128 .f32) y = (V c main_v5 : S1x128.Idx → EReal) y := by
  obtain ⟨-, -, -, -, -, -, -, e0, e1, -⟩ := idx_facts0 t
  unfold iblk0
  rw [View.read_apply]
  show V c main_v5 _ = V c main_v5 y
  refine congrArg (V c main_v5) ?_
  funext a; apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The four arrays the kernel reads, as functions of their indices: the query array, the padded and transposed weight
    matrix, the padded bias row, the padded weight row. -/
abbrev arrQ (c : Dev nD) : S4x4096x1024.Idx → EReal := V c main_arg0
abbrev arrW (c : Dev nD) : S1024x128.Idx → EReal := V c main_v2
abbrev arrB (c : Dev nD) : S1x128.Idx → EReal := V c main_v4
abbrev arrT (c : Dev nD) : S1x128.Idx → EReal := V c main_v5

/-- The unnormalised entry of row (b, s), lane l, over the arrays the kernel is entered from. -/
def cvOf (c : Dev nD) (b : Fin 4) (s : Fin 4096) (l : Fin 128) : EReal :=
  ((∑ d : Fin 1024, arrQ V c (ix3 b s d) * arrW V c (ix2 d l)) + arrB V c (ix2 (0 : Fin 1) l)) * arrT V c (ix2 (0 : Fin 1) l)

/-- The normalised rows as one function of the arrays: what the output array ends holding. -/
def rowsOf (c : Dev nD) : S4x4096x128.Idx → EReal := fun i =>
  Ideal.div (cvOf V c (i 0) (i 1) (i 2))
    (max (Ideal.sqrt (∑ l' : Fin 128, cvOf V c (i 0) (i 1) l' * cvOf V c (i 0) (i 1) l')) Cert.Spec.eps)

/-- At point t the block's unnormalised entry (r, l) is the array's at row (t % 2) · 2048 + r of batch t / 2. -/
theorem cval_blocks (c : Dev nD) (t : Fin cfg0.N) (b : Fin 4) (s : Fin 4096) (r : Fin 2048) (l : Fin 128)
    (hb : b.val = t.val / 2) (hs : s.val = t.val % 2 * 2048 + r.val) :
    cval (iblk0 V c 0 t) (iblk0 V c 1 t) (iblk0 V c 2 t) (iblk0 V c 3 t) r l = cvOf V c b s l := by
  unfold cval cvOf
  rw [iblk0_2_apply, iblk0_3_apply]
  refine congrArg (fun z => (z + arrB V c (ix2 (0 : Fin 1) l)) * arrT V c (ix2 (0 : Fin 1) l)) (Finset.sum_congr rfl fun d _ => ?_)
  rw [iblk0_1_apply, iblk0_0_apply V c t (ix3 (0 : Fin 1) r d) (ix3 b s d) hb hs rfl]

/-- What the body stores at point t, at an entry of its block, is the whole-array function at the entry's place. -/
theorem point0 (c : Dev nD) (t : Fin cfg0.N) (y : S1x2048x128.Idx) (i : S4x4096x128.Idx)
    (hi0 : (i 0).val = t.val / 2) (hi1 : (i 1).val = t.val % 2 * 2048 + (y 1).val) (hi2 : (i 2).val = (y 2).val) :
    k0_pay1 (F := Ideal) (iblk0 V c 0 t) (iblk0 V c 1 t) (iblk0 V c 2 t) (iblk0 V c 3 t) y = rowsOf V c i := by
  obtain ⟨u, r, l, rfl⟩ : ∃ (u : Fin 1) (r : Fin 2048) (l : Fin 128), y = ix3 u r l := ⟨y 0, y 1, y 2, eq_ix3 y⟩
  obtain rfl : u = 0 := Subsingleton.elim _ _
  obtain ⟨b, s, l', rfl⟩ : ∃ (b : Fin 4) (s : Fin 4096) (l' : Fin 128), i = ix3 b s l' := ⟨i 0, i 1, i 2, eq_ix3 i⟩
  have hb : b.val = t.val / 2 := hi0
  have hs : s.val = t.val % 2 * 2048 + r.val := hi1
  obtain rfl : l' = l := Fin.ext hi2
  rw [pay_ctx]
  simp only [cval_blocks V c t b s r _ hb hs]
  rfl

/-- WHAT POINT t WRITES BACK is its block of the whole-array function. -/
theorem flushed0_eq (c : Dev nD) (t : Fin cfg0.N) :
    (dat0 V c).flushed 4 t = ((cfg0.win 4).blk t).view.read (Elt Ideal) (rowsOf V c) := by
  show (cfg0.win 4).cut (grid0.coords t) ((dat0 V c).after 4 t) = _
  rw [after0_4]
  unfold out0_4
  rw [View.canon_unit_zero zeros3]
  simp only [View.ld_unit_zero (S := S1x2048x1024) zeros3, View.ld_unit_zero (S := S1024x128) zeros2,
    View.ld_unit_zero (S := S1x128) zeros2]
  obtain ⟨-, -, -, -, -, -, -, -, -, e0, e1, e2⟩ := idx_facts0 t
  funext j
  rw [View.read_apply]
  show k0_pay1 (F := Ideal) (iblk0 V c 0 t) (iblk0 V c 1 t) (iblk0 V c 2 t) (iblk0 V c 3 t) ((win0 4).xinj (grid0.coords t) j)
    = rowsOf V c (((View.whole main_v6).slice ((win0 4).rect t)).emb j)
  have h0 : (j 0).val < 1 := (j 0).isLt
  refine point0 V c t _ _ ?_ ?_ ?_
  · show win0_4.index t (0 : Fin 3) * 1 + 1 * (j 0).val = t.val / 2; rw [e0]; omega
  · show win0_4.index t (1 : Fin 3) * 2048 + 1 * (j 1).val = t.val % 2 * 2048 + (j 1).val; rw [e1]; omega
  · show win0_4.index t (2 : Fin 3) * 128 + 1 * (j 2).val = (j 2).val; rw [e2]; omega

/-- An index of the array is in point t's block iff each coordinate is in the block's range on its axis. -/
theorem mem_blk0 (t : Fin cfg0.N) (i : S4x4096x128.Idx) :
    i ∈ ((cfg0.win 4).blk t).view.set ↔ ∀ a : Fin 3, win0_4.index t a * S1x2048x128.size a ≤ (i a).val
      ∧ (i a).val < win0_4.index t a * S1x2048x128.size a + S1x2048x128.size a := by
  show i ∈ ((View.whole main_v6).slice (win0_4.rect t)).set ↔ _
  rw [View.set_slice_whole, Rect.mem_set_unit]
  exact Iff.rfl

/-- Row s of batch b is in the block of point 2 b + s / 2048. -/
theorem cover0 (i : S4x4096x128.Idx) :
    ∃ t : Fin cfg0.N, (cfg0.win 4).flush t = true ∧ i ∈ ((cfg0.win 4).blk t).view.set := by
  have hb : (i 0).val < 4 := (i 0).isLt
  have hs : (i 1).val < 4096 := (i 1).isLt
  have hl : (i 2).val < 128 := (i 2).isLt
  let t : Fin cfg0.N := ⟨2 * (i 0).val + (i 1).val / 2048, by show _ < grid0.N; rw [Gen.N_0]; omega⟩
  have htv : t.val = 2 * (i 0).val + (i 1).val / 2048 := rfl
  obtain ⟨-, -, -, -, -, -, -, -, -, e0, e1, e2⟩ := idx_facts0 t
  refine ⟨t, flush0_4 t, ?_⟩
  rw [mem_blk0]
  intro a
  match a with
  | ⟨0, _⟩ => show win0_4.index t (0 : Fin 3) * 1 ≤ (i 0).val ∧ (i 0).val < win0_4.index t (0 : Fin 3) * 1 + 1; rw [e0, htv]; omega
  | ⟨1, _⟩ => show win0_4.index t (1 : Fin 3) * 2048 ≤ (i 1).val ∧ (i 1).val < win0_4.index t (1 : Fin 3) * 2048 + 2048; rw [e1, htv]; omega
  | ⟨2, _⟩ => show win0_4.index t (2 : Fin 3) * 128 ≤ (i 2).val ∧ (i 2).val < win0_4.index t (2 : Fin 3) * 128 + 128; rw [e2]; omega

/-- THE ARRAY after the kernel: the normalised rows. -/
theorem arr0_eq (c : Dev nD) : (dat0 V c).arrAt 4 cfg0.N = rowsOf V c :=
  (dat0 V c).arrAt_eq_of_cover 4 (rowsOf V c) (fun t _ => flushed0_eq V c t) cover0

end Any

/-! ## At the contents the host operations leave -/

variable (m : (ℓ : Loc nD τ sig) → Buf (Elt Ideal) ℓ) (c : Dev nD)

/-- The query array and the padded parameters the host built, as the first kernel finds them. -/
abbrev inQ : S4x4096x1024.Idx → EReal := Gen.V6 m c main_arg0
abbrev inW : S1024x128.Idx → EReal := Gen.V6 m c main_v2
abbrev inB : S1x128.Idx → EReal := Gen.V6 m c main_v4
abbrev inT : S1x128.Idx → EReal := Gen.V6 m c main_v5

/-- The unnormalised entry of row (b, s), lane l, over the padded parameters the host built. -/
def cv (b : Fin 4) (s : Fin 4096) (l : Fin 128) : EReal :=
  ((∑ d : Fin 1024, inQ m c (ix3 b s d) * inW m c (ix2 d l)) + inB m c (ix2 (0 : Fin 1) l)) * inT m c (ix2 (0 : Fin 1) l)

theorem cv_eq (b : Fin 4) (s : Fin 4096) (l : Fin 128) : cv m c b s l = cvOf (VA m) c b s l := rfl

/-- The first kernel's array at (b, s, l): the unnormalised entry over the larger of its row's length and the floor. -/
theorem X6_apply (b : Fin 4) (s : Fin 4096) (l : Fin 128) :
    (Hand.X6 m c : S4x4096x128.Idx → EReal) (ix3 b s l)
      = Ideal.div (cv m c b s l) (max (Ideal.sqrt (∑ l' : Fin 128, cv m c b s l' * cv m c b s l')) Cert.Spec.eps) := by
  unfold Hand.X6
  rw [arr0_eq (VA m) c]
  simp only [cv_eq]
  rfl

end Cert.KernelIdeal.HandValue

end
-- ==== Proof.PayScores.lean ====
/-
  The second kernel's block, read at one entry, over the extended reals.

  A block of 512 normalised rows is multiplied with the transpose of the batch's 4096 normalised rows (128 lanes each),
  giving the scores σ[r,t] = Σ_l a[r,l]·k[t,l]; each row of scores is then turned into its softmax:
  exp(σ[r,t] − max_t' σ[r,t']) / Σ_t' exp(σ[r,t'] − max_t'' σ[r,t'']).  The row maximum is the fold of max from −∞ over
  the 4096 columns, the row sum a finite sum over them, the keepdims casts and column broadcasts read one entry, and
  the matrix product into a zero accumulator is the finite sum over the contracted lane coordinate.
-/
import proofs.«144623_j5428838662760_2_alg».proof.Proof.Gen.KernelIdeal.Skeleton
import proofs.«144623_j5428838662760_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Cert.KernelIdeal

/-! ## The keepdims column forms -/

/-- An `[a]` array cast to `[a, 1]` reads, at `(i, u)`, the operand at `i`, whatever the unit coordinate `u`. -/
theorem colCast_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product of the second kernel -/

theorem scores_lhs_0 (i : S512x4096.Idx) (q : dot_S512x128_S4096x128_S512x4096_1_1_0_0_n_n.contr.Idx) :
    (dot_S512x128_S4096x128_S512x4096_1_1_0_0_n_n.lhsIdx i q 0).val = (i 0).val := by
  unfold DotDims.lhsIdx
  rw [dif_neg (show ¬(0 : Fin S512x128.rank) ∈ dot_S512x128_S4096x128_S512x4096_1_1_0_0_n_n.lhsBatch by decide),
    dif_pos (show (0 : Fin S512x128.rank) ∈ dot_S512x128_S4096x128_S512x4096_1_1_0_0_n_n.lhsNonContracting by decide)]
  rfl
theorem scores_lhs_1 (i : S512x4096.Idx) (q : dot_S512x128_S4096x128_S512x4096_1_1_0_0_n_n.contr.Idx) :
    (dot_S512x128_S4096x128_S512x4096_1_1_0_0_n_n.lhsIdx i q 1).val = (q ⟨0, by decide⟩).val :=
  dot_S512x128_S4096x128_S512x4096_1_1_0_0_n_n.lhsIdx_val_of_single rfl i q
theorem scores_rhs_0 (i : S512x4096.Idx) (q : dot_S512x128_S4096x128_S512x4096_1_1_0_0_n_n.contr.Idx) :
    (dot_S512x128_S4096x128_S512x4096_1_1_0_0_n_n.rhsIdx i q 0).val = (i 1).val := by
  unfold DotDims.rhsIdx
  rw [dif_neg (show ¬(0 : Fin S4096x128.rank) ∈ dot_S512x128_S4096x128_S512x4096_1_1_0_0_n_n.rhsBatch by decide),
    dif_pos (show (0 : Fin S4096x128.rank) ∈ dot_S512x128_S4096x128_S512x4096_1_1_0_0_n_n.rhsNonContracting by decide)]
  rfl
theorem scores_rhs_1 (i : S512x4096.Idx) (q : dot_S512x128_S4096x128_S512x4096_1_1_0_0_n_n.contr.Idx) :
    (dot_S512x128_S4096x128_S512x4096_1_1_0_0_n_n.rhsIdx i q 1).val = (q ⟨0, by decide⟩).val :=
  dot_S512x128_S4096x128_S512x4096_1_1_0_0_n_n.rhsIdx_val_of_single rfl i q

/-- The product of a `[512, 128]` matrix with the transpose of a `[4096, 128]` one (both contracted along their lanes)
    into the zero accumulator reads, at `(r, t)`, the dot product of row `r` of the first with row `t` of the second. -/
theorem matmul_scores_apply (A : FVec Ideal S512x128 .bf16) (B : FVec Ideal S4096x128 .bf16) (r : Fin 512) (t : Fin 4096) :
    matmul (F := Ideal) dot_S512x128_S4096x128_S512x4096_1_1_0_0_n_n none A B (constant (F := Ideal) S512x4096 .f32 0x00000000#32) (ix2 r t)
      = ∑ l : Fin 128, A (ix2 r l) * B (ix2 t l) := by
  show FloatOps.matmul dot_S512x128_S4096x128_S512x4096_1_1_0_0_n_n none A B (constant (F := Ideal) S512x4096 .f32 0x00000000#32) (ix2 r t) = _
  rw [Ideal.matmul_constant_zero_apply, ← Equiv.sum_comp (contrEquiv1 dot_S512x128_S4096x128_S512x4096_1_1_0_0_n_n 128 rfl rfl).symm]
  refine Finset.sum_congr rfl fun k _ => ?_
  have hk := contrEquiv1_symm_val dot_S512x128_S4096x128_S512x4096_1_1_0_0_n_n 128 rfl rfl k
  have el : dot_S512x128_S4096x128_S512x4096_1_1_0_0_n_n.lhsIdx (ix2 r t)
      ((contrEquiv1 dot_S512x128_S4096x128_S512x4096_1_1_0_0_n_n 128 rfl rfl).symm k) = ix2 r k := funext fun a => Fin.ext (by
    match a with
    | ⟨0, _⟩ => exact scores_lhs_0 _ _
    | ⟨1, _⟩ => exact (scores_lhs_1 _ _).trans hk)
  have er : dot_S512x128_S4096x128_S512x4096_1_1_0_0_n_n.rhsIdx (ix2 r t)
      ((contrEquiv1 dot_S512x128_S4096x128_S512x4096_1_1_0_0_n_n 128 rfl rfl).symm k) = ix2 t k := funext fun a => Fin.ext (by
    match a with
    | ⟨0, _⟩ => exact scores_rhs_0 _ _
    | ⟨1, _⟩ => exact (scores_rhs_1 _ _).trans hk)
  rw [el, er]

/-! ## The lane reductions -/

/-- The sum over the lanes of an `[a, b]` array reads, at row `r`, the sum over the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ l : Fin b, src (ix2 r l) := by
  refine (Ideal.multiReduction_add_single src _ h hφ hacc (ix1 r)).trans ?_
  show ∑ k : Fin b, src (h.lift (ix1 r) k) = _
  refine Finset.sum_congr rfl fun k _ => congrArg src ?_
  funext c
  apply Fin.ext
  match c with
  | ⟨0, _⟩ => rfl
  | ⟨1, _⟩ => rfl

/-- The maximum over the lanes of an `[a, b]` array, folded from −∞, reads, at row `r`, the fold of `max` from `⊥` over
    the row's entries. -/
theorem rowFoldMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction (F := Ideal) .maximumf [1] ⟨1, ![a]⟩ src 0xFF800000#32 h hφ hacc (ix1 r)
      = (Finset.univ : Finset (Fin b)).fold max ⊥ (fun t => src (ix2 r t)) := by
  refine (Ideal.multiReduction_maximumf_single src _ h hφ hacc (ix1 r)).trans ?_
  have hbot : (FloatOps.ofBits (F := Ideal) .f32 0xFF800000#32 : EReal) = ⊥ := by
    show Ideal.ofBits .f32 0xFF800000#32 = ⊥
    simp [Ideal.ofBits, Ideal.ieee]
  have hf : (src ∘ h.lift (ix1 r) : Fin b → EReal) = fun t => src (ix2 r t) := by
    funext k
    refine congrArg src ?_
    funext c
    apply Fin.ext
    match c with
    | ⟨0, _⟩ => rfl
    | ⟨1, _⟩ => rfl
  show (Finset.univ : Finset (Fin b)).fold max (FloatOps.ofBits (F := Ideal) .f32 0xFF800000#32) (src ∘ h.lift (ix1 r)) = _
  rw [hbot]
  exact congrArg (fun f : Fin b → EReal => (Finset.univ : Finset (Fin b)).fold max ⊥ f) hf

/-! ## The second kernel's payload at an index -/

/-- The row of scores of row `r` of the first block against every row of the second. -/
def srow (a : FVec Ideal S1x512x128 .bf16) (k : FVec Ideal S1x4096x128 .bf16) (r : Fin 512) : Fin 4096 → EReal :=
  fun t' => ∑ l : Fin 128, a (ix3 (0 : Fin 1) r l) * k (ix3 (0 : Fin 1) t' l)

/-- The gram block as the kernel spells it reads, at `(r, t)`, the score. -/
theorem gram_apply (a : FVec Ideal S1x512x128 .bf16) (k : FVec Ideal S1x4096x128 .bf16) (r : Fin 512) (t : Fin 4096) :
    matmul (F := Ideal) dot_S512x128_S4096x128_S512x4096_1_1_0_0_n_n none
        (shapeCast S512x128 a Gen.shapeCasts_S1x512x128_S512x128) (shapeCast S4096x128 k Gen.shapeCasts_S1x4096x128_S4096x128)
        (constant (F := Ideal) S512x4096 .f32 0x00000000#32) (ix2 r t)
      = srow a k r t := by
  refine (matmul_scores_apply _ _ r t).trans ?_
  unfold srow
  refine Finset.sum_congr rfl fun l _ => ?_
  refine congrArg₂ (· * ·) ?_ ?_
  · exact shapeCast_1ab_ab_apply _ _ r l
  · exact shapeCast_1ab_ab_apply _ _ t l

/-- The exponentials of the scores less their row maximum, as the kernel spells them, at `(r, t)`. -/
theorem expd_apply (a : FVec Ideal S1x512x128 .bf16) (k : FVec Ideal S1x4096x128 .bf16)
    (hφ : FKind.Formats .f32) (hacc : (0xFF800000#32 : BitVec 32) = FKind.maximumf.neutral .f32 hφ) (r : Fin 512) (t : Fin 4096) :
    exp (F := Ideal)
      (subf
        (matmul (F := Ideal) dot_S512x128_S4096x128_S512x4096_1_1_0_0_n_n none
          (shapeCast S512x128 a Gen.shapeCasts_S1x512x128_S512x128) (shapeCast S4096x128 k Gen.shapeCasts_S1x4096x128_S4096x128)
          (constant (F := Ideal) S512x4096 .f32 0x00000000#32))
        (broadcastTo S512x4096
          (shapeCast S512x1
            (multiReduction (F := Ideal) .maximumf [1] S512
              (matmul (F := Ideal) dot_S512x128_S4096x128_S512x4096_1_1_0_0_n_n none
                (shapeCast S512x128 a Gen.shapeCasts_S1x512x128_S512x128) (shapeCast S4096x128 k Gen.shapeCasts_S1x4096x128_S4096x128)
                (constant (F := Ideal) S512x4096 .f32 0x00000000#32))
              0xFF800000#32 Gen.reduces_S512x4096_S512 hφ hacc)
            Gen.shapeCasts_S512_S512x1)
          Gen.broadcasts_S512x1_S512x4096)) (ix2 r t)
      = Ideal.exp (srow a k r t - Cert.Spec.rowMax (srow a k r)) := by
  show Ideal.exp (subf (F := Ideal) (s := S512x4096) (φ := .f32) _ _ (ix2 r t)) = _
  refine congrArg Ideal.exp ?_
  refine (subf_apply _ _ _).trans ?_
  refine congrArg₂ (· - ·) ?_ ?_
  · exact gram_apply a k r t
  · refine (colBroadcast_apply _ _ r t).trans ?_
    refine (colCast_apply _ _ r (0 : Fin 1)).trans ?_
    refine (rowFoldMax_apply _ _ _ _ r).trans ?_
    unfold Cert.Spec.rowMax
    refine congrArg (fun f : Fin 4096 → EReal => (Finset.univ : Finset (Fin 4096)).fold max ⊥ f) ?_
    funext t'
    exact gram_apply a k r t'

theorem pay_scores (a : FVec Ideal S1x512x128 .bf16) (k : FVec Ideal S1x4096x128 .bf16) (r : Fin 512) (t : Fin 4096) :
    Gen.k1_pay1 (F := Ideal) a k (ix3 (0 : Fin 1) r t)
      = Cert.Spec.softmaxRow (fun t' => ∑ l : Fin 128, a (ix3 (0 : Fin 1) r l) * k (ix3 (0 : Fin 1) t' l)) t := by
  unfold Gen.k1_pay1
  refine (shapeCast_ab_1ab_apply _ _ (0 : Fin 1) r t).trans ?_
  refine (divf_apply _ _ _).trans ?_
  show _ = Cert.Spec.softmaxRow (srow a k r) t
  unfold Cert.Spec.softmaxRow
  refine congrArg₂ Ideal.div ?_ ?_
  · exact expd_apply a k _ _ r t
  · refine (colBroadcast_apply _ _ r t).trans ?_
    refine (colCast_apply _ _ r (0 : Fin 1)).trans ?_
    refine (rowSum_apply _ _ _ _ r).trans ?_
    refine Finset.sum_congr rfl fun t' _ => ?_
    exact expd_apply a k _ _ r t'

end Cert.KernelIdeal.PayValue

end
-- ==== Proof.KernelIdeal.ArrScores.lean ====
/-
  The second kernel's result array as one function of the array the first kernel left, over the extended reals.

  The grid has 32 points: point t works on batch t / 8 and on the slab of 512 rows number t % 8 of that batch. Its first
  input block is that slab of normalised rows, its second all 4096 normalised rows of the batch, and what it writes
  back is the block of 512 × 4096 softmaxed scores of the slab against the batch. Every index (b, s, t) of the result
  lies in the block of point 8·b + s / 512, and each block is the restriction of one whole-array function, so the
  array ends holding that function: at (b, s, t) the softmax over t' of Σ_l u[b,s,l]·u[b,t',l], taken at t.
-/
import proofs.«144623_j5428838662760_2_alg».proof.Proof.KernelIdeal.Seg0
import proofs.«144623_j5428838662760_2_alg».proof.Proof.PayScores
import proofs.«144623_j5428838662760_2_alg».proof.Proof.Spec
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable (m : (ℓ : Loc nD τ sig) → Buf (Elt Ideal) ℓ) (c : Dev nD)

/-- The softmax of the scores of row `s` of batch `b` against every row of that batch, at column `t`. -/
def scoresAt (X : S4x4096x128.Idx → EReal) (b : Fin 4) (s t : Fin 4096) : EReal :=
  Cert.Spec.softmaxRow (fun t' => ∑ l : Fin 128, X (ix3 b s l) * X (ix3 b t' l)) t

/-- The whole result array as a function of the array of normalised rows. -/
def scoresArr (X : S4x4096x128.Idx → EReal) : S4x4096x4096.Idx → EReal :=
  fun i => scoresAt X (i 0) (i 1) (i 2)

theorem scoresArr_ix3 (X : S4x4096x128.Idx → EReal) (b : Fin 4) (s t : Fin 4096) :
    scoresArr X (ix3 b s t) = scoresAt X b s t := rfl

theorem zero3 : (![0, 0, 0] : Fin 3 → Nat) = fun _ => 0 := funext fun a => by fin_cases a <;> rfl

/-- The array the second kernel reads is what the first kernel left. -/
theorem VB_rows : (VB m c main_v6 : S4x4096x128.Idx → EReal) = (X6 m c : S4x4096x128.Idx → EReal) := by
  show Function.update (Gen.V6 m c) (Proc.devRef .tc main_v6) (X6 m c) (Proc.devRef .tc main_v6) = _
  rw [Function.update_self]

/-- The printed index maps over the grid: point `t` is batch `t / 8`, slab `t % 8`. -/
theorem index_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = t.val % 8 ∧ win1_2.index t (2 : Fin 3) = 0 :=
  (by decide +kernel : ∀ t : Fin grid1.N, _)

/-- One block of the result from its two input blocks: when the first block holds rows `512·q … 512·q + 511` of batch
    `b` and the second all 4096 rows of that batch, the payload at `(r, t)` is the result at `(b, 512·q + r, t)`. -/
theorem block_scores (X : S4x4096x128.Idx → EReal) (a : FVec Ideal S1x512x128 .bf16) (k : FVec Ideal S1x4096x128 .bf16)
    (b : Fin 4) (s : Fin 4096) (r : Fin 512)
    (ha : ∀ l : Fin 128, a (ix3 (0 : Fin 1) r l) = X (ix3 b s l))
    (hk : ∀ (t' : Fin 4096) (l : Fin 128), k (ix3 (0 : Fin 1) t' l) = X (ix3 b t' l)) (t : Fin 4096) :
    k1_pay1 (F := Ideal) a k (ix3 (0 : Fin 1) r t) = scoresAt X b s t := by
  rw [PayValue.pay_scores]
  unfold scoresAt
  refine congrArg (fun f : Fin 4096 → EReal => Cert.Spec.softmaxRow f t) ?_
  funext t'
  refine Finset.sum_congr rfl fun l _ => ?_
  rw [ha l, hk t' l]

/-- The first input's block at point `t` holds rows `512·(t % 8) …` of batch `t / 8` of what the first kernel left. -/
theorem rows_block (t : Fin cfg1.N) (u : Fin 1) (r : Fin 512) (l : Fin 128) (b : Fin 4) (s : Fin 4096)
    (hb : b.val = t.val / 8) (hs : s.val = 512 * (t.val % 8) + r.val) :
    (iblk1 (VB m) c 0 t : S1x512x128.Idx → EReal) (ix3 u r l) = (X6 m c : S4x4096x128.Idx → EReal) (ix3 b s l) := by
  obtain ⟨e0, e1, e2, -⟩ := index_facts t
  unfold iblk1
  rw [View.read_apply]
  show (VB m c main_v6 : S4x4096x128.Idx → EReal) (((cfg1.win 0).blk t).view.emb (ix3 u r l)) = _
  rw [VB_rows]
  refine congrArg (X6 m c : S4x4096x128.Idx → EReal) ?_
  funext a
  apply Fin.ext
  match a with
  | ⟨0, _⟩ => show win1_0.index t (0 : Fin 3) * 1 + 1 * u.val = b.val; have := u.isLt; omega
  | ⟨1, _⟩ => show win1_0.index t (1 : Fin 3) * 512 + 1 * r.val = s.val; omega
  | ⟨2, _⟩ => show win1_0.index t (2 : Fin 3) * 128 + 1 * l.val = l.val; omega

/-- The second input's block at point `t` holds all rows of batch `t / 8` of what the first kernel left. -/
theorem batch_block (t : Fin cfg1.N) (u : Fin 1) (t' : Fin 4096) (l : Fin 128) (b : Fin 4) (hb : b.val = t.val / 8) :
    (iblk1 (VB m) c 1 t : S1x4096x128.Idx → EReal) (ix3 u t' l) = (X6 m c : S4x4096x128.Idx → EReal) (ix3 b t' l) := by
  obtain ⟨-, -, -, e0, e1, e2, -⟩ := index_facts t
  unfold iblk1
  rw [View.read_apply]
  show (VB m c main_v6 : S4x4096x128.Idx → EReal) (((cfg1.win 1).blk t).view.emb (ix3 u t' l)) = _
  rw [VB_rows]
  refine congrArg (X6 m c : S4x4096x128.Idx → EReal) ?_
  funext a
  apply Fin.ext
  match a with
  | ⟨0, _⟩ => show win1_1.index t (0 : Fin 3) * 1 + 1 * u.val = b.val; have := u.isLt; omega
  | ⟨1, _⟩ => show win1_1.index t (1 : Fin 3) * 4096 + 1 * t'.val = t'.val; omega
  | ⟨2, _⟩ => show win1_1.index t (2 : Fin 3) * 128 + 1 * l.val = l.val; omega

/-- What point `t` writes back is block `t` of the whole-array function of what the first kernel left. -/
theorem flushed_scores (t : Fin cfg1.N) :
    (dat1 (VB m) c).flushed 2 t = ((cfg1.win 2).blk t).view.read (Elt Ideal) (scoresArr (X6 m c)) := by
  show (cfg1.win 2).cut (grid1.coords t) ((dat1 (VB m) c).after 2 t) = _
  rw [after1_2]
  unfold out1_2
  rw [View.canon_unit_zero zero3]
  simp only [View.ld_unit_zero (S := S1x512x128) zero3, View.ld_unit_zero (S := S1x4096x128) zero3]
  have hN : cfg1.N = 32 := N_1
  have ht := t.isLt
  obtain ⟨-, -, -, -, -, -, e0, e1, e2⟩ := index_facts t
  funext j
  obtain ⟨u, r, tt, rfl⟩ : ∃ (u : Fin 1) (r : Fin 512) (tt : Fin 4096), j = ix3 u r tt :=
    ⟨j 0, j 1, j 2, eq_ix3 (n0 := 1) (n1 := 512) (n2 := 4096) j⟩
  obtain rfl : u = 0 := Subsingleton.elim _ _
  have hr := r.isLt
  have hemb : ((cfg1.win 2).blk t).view.emb (ix3 (0 : Fin 1) r tt)
      = (ix3 (⟨t.val / 8, by omega⟩ : Fin 4) (⟨512 * (t.val % 8) + r.val, by omega⟩ : Fin 4096) tt : S4x4096x4096.Idx) := by
    funext a
    apply Fin.ext
    match a with
    | ⟨0, _⟩ => show win1_2.index t (0 : Fin 3) * 1 + 1 * 0 = t.val / 8; omega
    | ⟨1, _⟩ => show win1_2.index t (1 : Fin 3) * 512 + 1 * r.val = 512 * (t.val % 8) + r.val; omega
    | ⟨2, _⟩ => show win1_2.index t (2 : Fin 3) * 4096 + 1 * tt.val = tt.val; omega
  show k1_pay1 (F := Ideal) (iblk1 (VB m) c 0 t) (iblk1 (VB m) c 1 t) (ix3 (0 : Fin 1) r tt)
    = scoresArr (X6 m c) (((cfg1.win 2).blk t).view.emb (ix3 (0 : Fin 1) r tt))
  rw [hemb, scoresArr_ix3]
  exact block_scores (X6 m c) _ _ _ _ r (fun l => rows_block m c t 0 r l _ _ rfl rfl)
    (fun t' l => batch_block m c t 0 t' l _ rfl) tt

/-- An index of the result array is in point `t`'s block iff each coordinate is in the block's range on its axis. -/
theorem mem_block (t : Fin cfg1.N) (i : S4x4096x4096.Idx) :
    i ∈ ((cfg1.win 2).blk t).view.set ↔ ∀ a : Fin 3, win1_2.index t a * S1x512x4096.size a ≤ (i a).val
      ∧ (i a).val < win1_2.index t a * S1x512x4096.size a + S1x512x4096.size a := by
  show i ∈ ((View.whole main_v7).slice (win1_2.rect t)).set ↔ _
  rw [View.set_slice_whole, Rect.mem_set_unit]
  exact Iff.rfl

/-- Every index of the result array is in some point's block: row `s` of batch `b` is in the block of point
    `8·b + s / 512`. -/
theorem cover_scores (i : S4x4096x4096.Idx) :
    ∃ t : Fin cfg1.N, (cfg1.win 2).flush t = true ∧ i ∈ ((cfg1.win 2).blk t).view.set := by
  have h0 : (i 0).val < 4 := (i 0).isLt
  have h1 : (i 1).val < 4096 := (i 1).isLt
  have h2 : (i 2).val < 4096 := (i 2).isLt
  have hN : cfg1.N = 32 := N_1
  refine ⟨⟨8 * (i 0).val + (i 1).val / 512, by rw [hN]; omega⟩, flush1_2 _, ?_⟩
  obtain ⟨-, -, -, -, -, -, e0, e1, e2⟩ := index_facts ⟨8 * (i 0).val + (i 1).val / 512, by rw [hN]; omega⟩
  rw [mem_block]
  intro a
  match a with
  | ⟨0, _⟩ =>
    show win1_2.index _ (0 : Fin 3) * 1 ≤ (i 0).val ∧ (i 0).val < win1_2.index _ (0 : Fin 3) * 1 + 1
    rw [e0]; show (8 * (i 0).val + (i 1).val / 512) / 8 * 1 ≤ (i 0).val ∧ (i 0).val < (8 * (i 0).val + (i 1).val / 512) / 8 * 1 + 1; omega
  | ⟨1, _⟩ =>
    show win1_2.index _ (1 : Fin 3) * 512 ≤ (i 1).val ∧ (i 1).val < win1_2.index _ (1 : Fin 3) * 512 + 512
    rw [e1]; show (8 * (i 0).val + (i 1).val / 512) % 8 * 512 ≤ (i 1).val ∧ (i 1).val < (8 * (i 0).val + (i 1).val / 512) % 8 * 512 + 512; omega
  | ⟨2, _⟩ =>
    show win1_2.index _ (2 : Fin 3) * 4096 ≤ (i 2).val ∧ (i 2).val < win1_2.index _ (2 : Fin 3) * 4096 + 4096
    rw [e2]; omega

/-- The result array after the second kernel: the whole-array function of what the first kernel left. -/
theorem X7_eq : (X7 m c : S4x4096x4096.Idx → EReal) = scoresArr (X6 m c) := by
  unfold X7
  exact (dat1 (VB m) c).arrAt_eq_of_cover 2 (scoresArr (X6 m c)) (fun t _ => flushed_scores m c t) cover_scores

/-- What the first kernel left, as a function of the index: the normalised rows. -/
abbrev rows : S4x4096x128.Idx → EReal := Hand.X6 m c

/-- The result array at `(b, s, t)`: the softmax of the scores of row `s` of batch `b` against every row of the batch. -/
theorem X7_apply (b : Fin 4) (s t : Fin 4096) :
    (Hand.X7 m c : S4x4096x4096.Idx → EReal) (ix3 b s t)
      = Cert.Spec.softmaxRow (fun t' => ∑ l : Fin 128, rows m c (ix3 b s l) * rows m c (ix3 b t' l)) t := by
  rw [X7_eq]
  rfl

end Cert.KernelIdeal.HandValue

end
-- ==== Proof.PadAlgebra.lean ====
/-
  The algebra of zero padding, over the extended reals.

  A row of 128 lanes whose last 8 lanes are zero carries the 120 entries of a shorter row.  Sums of products over
  the 128 lanes are the sums over the 120 entries, because every product with a zero lane is zero; the projected,
  shifted and scaled row of a padded parameter set is the padding of the row of the unpadded set; and dividing a
  padded row by the larger of its length and a positive floor pads the divided row, because zero divided by a
  nonzero length is zero.
-/
import Mathlib.Algebra.BigOperators.Fin
import Idealize.ShloMosaic.PureOps.Ideal
import proofs.«144623_j5428838662760_2_alg».proof.Proof.Spec

noncomputable section

namespace Cert.PadAlgebra

open Idealize.ShloMosaic

/-- A row of 120 entries followed by 8 zero lanes. -/
def pad (f : Fin 120 → EReal) : Fin 128 → EReal := fun l => if h : l.val < 120 then f ⟨l.val, h⟩ else 0

theorem pad_of_lt (f : Fin 120 → EReal) (l : Fin 128) (h : l.val < 120) : pad f l = f ⟨l.val, h⟩ := by
  simp only [pad, dif_pos h]

theorem pad_of_not_lt (f : Fin 120 → EReal) (l : Fin 128) (h : ¬ l.val < 120) : pad f l = 0 := by
  simp only [pad, dif_neg h]

/-- On the first 120 lanes the padded row is the row. -/
theorem pad_castAdd (f : Fin 120 → EReal) (h : Fin 120) : pad f (Fin.castAdd 8 h) = f h := by
  have hl : (Fin.castAdd 8 h).val < 120 := h.isLt
  rw [pad_of_lt f _ hl]; rfl

/-- On the last 8 lanes the padded row is zero. -/
theorem pad_natAdd (f : Fin 120 → EReal) (k : Fin 8) : pad f (Fin.natAdd 120 k) = 0 := by
  have hl : ¬ (Fin.natAdd 120 k).val < 120 := by simp [Fin.natAdd]
  rw [pad_of_not_lt f _ hl]

/-- A sum over 128 lanes whose last 8 terms vanish is the sum of the first 120 terms. -/
theorem sum_lanes (F : Fin 128 → EReal) (hF : ∀ k : Fin 8, F (Fin.natAdd 120 k) = 0) :
    ∑ l : Fin 128, F l = ∑ h : Fin 120, F (Fin.castAdd 8 h) := by
  have e : ∑ l : Fin (120 + 8), F l
      = ∑ h : Fin 120, F (Fin.castAdd 8 h) + ∑ k : Fin 8, F (Fin.natAdd 120 k) := Fin.sum_univ_add (a := 120) (b := 8) F
  rw [Finset.sum_congr rfl (fun k _ => hF k), Finset.sum_const_zero, add_zero] at e
  exact e

theorem sum_pad_mul (f g : Fin 120 → EReal) : ∑ l : Fin 128, pad f l * pad g l = ∑ h : Fin 120, f h * g h := by
  rw [sum_lanes (fun l => pad f l * pad g l) (fun k => by rw [pad_natAdd, zero_mul])]
  exact Finset.sum_congr rfl (fun h _ => by rw [pad_castAdd, pad_castAdd])

theorem cval_pad (q : Fin 1024 → EReal) (W : Fin 120 → Fin 1024 → EReal) (bq wt : Fin 120 → EReal) (l : Fin 128) :
    ((∑ d : Fin 1024, q d * (if h : l.val < 120 then W ⟨l.val, h⟩ d else 0)) + pad bq l) * pad wt l
      = pad (Cert.Spec.ctx q W bq wt) l := by
  by_cases h : l.val < 120
  · simp only [pad_of_lt _ l h, dif_pos h, Cert.Spec.ctx]
  · simp only [pad_of_not_lt _ l h, dif_neg h, mul_zero]

/-- The floor is a positive real. -/
theorem eps_pos : 0 < Cert.Spec.eps := by
  unfold Cert.Spec.eps
  simp [Ideal.ofBits, Ideal.ieee, -EReal.coe_mul]

/-- The larger of a length and the floor is not zero. -/
theorem max_eps_ne_zero (a : EReal) : max a Cert.Spec.eps ≠ 0 :=
  (lt_of_lt_of_le eps_pos (le_max_right a Cert.Spec.eps)).ne'

/-- Zero divided by a nonzero extended real is zero. -/
theorem div_zero_left (y : EReal) (hy : y ≠ 0) : Ideal.div 0 y = 0 := by
  rw [Ideal.div, if_neg hy, zero_mul]

theorem unit_pad (x : Fin 120 → EReal) (l : Fin 128) :
    Ideal.div (pad x l) (max (Ideal.sqrt (∑ l' : Fin 128, pad x l' * pad x l')) Cert.Spec.eps)
      = pad (Cert.Spec.unit x) l := by
  rw [sum_pad_mul]
  by_cases h : l.val < 120
  · rw [pad_of_lt _ l h, pad_of_lt _ l h]; rfl
  · rw [pad_of_not_lt _ l h, pad_of_not_lt _ l h]
    exact div_zero_left _ (max_eps_ne_zero _)

theorem gram_pad (u v : Fin 120 → EReal) : ∑ l : Fin 128, pad u l * pad v l = Cert.Spec.gram u v :=
  sum_pad_mul u v

end Cert.PadAlgebra

end
-- ==== Proof.HostPads.lean ====
/-
  The host operations that build the kernel's padded parameters, read at an index.

  Before its first kernel launch the program pads the projection matrix [120,1024] with 8 zero rows, transposes it to
  [1024,128] and changes its format (the identity on extended reals); pads the bias [120] with 8 zeros and reshapes
  it to one row [1,128]; and pads the weight row [1,120] with 8 zeros.  The padding value is the integer zero
  converted, which is the extended real zero.  So lane l of each padded array is the parameter's entry l below 120
  and zero from 120 on.
-/
import proofs.«144623_j5428838662760_2_alg».proof.Proof.Gen.KernelIdeal.Regions
import proofs.«144623_j5428838662760_2_alg».proof.Proof.PadAlgebra
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

noncomputable section

namespace Cert.KernelIdeal.HostPads

open Idealize.ShloMosaic Idealize.ShloMosaic.TcCoe Idealize.ShloMosaic.ValueIdx Cert.KernelIdeal Cert.KernelIdeal.Gen

/-! ## The padding value -/

/-- The padding value: the integer zero converted to a float. -/
abbrev zeroPad : S_.Idx → EReal := sitofp (F := Ideal) .f32 (constantI S_ 32 0#32)

/-- The integer zero converted is the extended real zero. -/
theorem zeroPad_apply (i : S_.Idx) : zeroPad i = 0 := by
  show ((((0#32 : BitVec 32).toInt : ℤ) : ℝ) : EReal) = 0
  simp

/-! ## Each pad read at an index, over any operand and padding value -/

/-- Eight rows appended to a [120,1024] matrix: row l is the operand's row l below 120, the padding value from 120 on. -/
theorem pad_rows_apply (x : S120x1024.Idx → EReal) (v : S_.Idx → EReal)
    (h : S120x1024.Pads (![0, 0] : Fin 2 → Nat) ![8, 0] ![0, 0] S128x1024) (hu : 0 < S_.numel) (l : Fin 128) (d : Fin 1024) :
    pad S128x1024 ![0, 0] ![8, 0] ![0, 0] x v h hu (ix2 l d)
      = if hl : l.val < 120 then x (ix2 ⟨l.val, hl⟩ d) else v (Shape.Idx.first hu) := by
  by_cases hl : l.val < 120
  · rw [dif_pos hl]
    exact pad_apply_of_inside _ _ _ x v h hu _ (ix2 ⟨l.val, hl⟩ d) (fun a => match a with
      | ⟨0, _⟩ => by show l.val = 0 + l.val * (0 + 1); omega
      | ⟨1, _⟩ => by show d.val = 0 + d.val * (0 + 1); omega)
  · rw [dif_neg hl]
    exact pad_apply_of_not_inside _ _ _ x v h hu _ (0 : Fin 2) (fun hin => hl (by
      have h3 : (l.val - 0) / (0 + 1) < 120 := hin.2.2
      omega))

/-- Eight entries appended to a [120] vector. -/
theorem pad_vec_apply (x : S120.Idx → EReal) (v : S_.Idx → EReal)
    (h : S120.Pads (![0] : Fin 1 → Nat) ![8] ![0] S128) (hu : 0 < S_.numel) (l : Fin 128) :
    pad S128 ![0] ![8] ![0] x v h hu (ix1 l)
      = if hl : l.val < 120 then x (ix1 ⟨l.val, hl⟩) else v (Shape.Idx.first hu) := by
  by_cases hl : l.val < 120
  · rw [dif_pos hl]
    exact pad_apply_of_inside _ _ _ x v h hu _ (ix1 ⟨l.val, hl⟩) (fun a => match a with
      | ⟨0, _⟩ => by show l.val = 0 + l.val * (0 + 1); omega)
  · rw [dif_neg hl]
    exact pad_apply_of_not_inside _ _ _ x v h hu _ (0 : Fin 1) (fun hin => hl (by
      have h3 : (l.val - 0) / (0 + 1) < 120 := hin.2.2
      omega))

/-- Eight lanes appended to a [1,120] row. -/
theorem pad_lanes_apply (x : S1x120.Idx → EReal) (v : S_.Idx → EReal)
    (h : S1x120.Pads (![0, 0] : Fin 2 → Nat) ![0, 8] ![0, 0] S1x128) (hu : 0 < S_.numel) (l : Fin 128) :
    pad S1x128 ![0, 0] ![0, 8] ![0, 0] x v h hu (ix2 (0 : Fin 1) l)
      = if hl : l.val < 120 then x (ix2 (0 : Fin 1) ⟨l.val, hl⟩) else v (Shape.Idx.first hu) := by
  by_cases hl : l.val < 120
  · rw [dif_pos hl]
    exact pad_apply_of_inside _ _ _ x v h hu _ (ix2 (0 : Fin 1) ⟨l.val, hl⟩) (fun a => match a with
      | ⟨0, _⟩ => by show 0 = 0 + 0 * (0 + 1); omega
      | ⟨1, _⟩ => by show l.val = 0 + l.val * (0 + 1); omega)
  · rw [dif_neg hl]
    exact pad_apply_of_not_inside _ _ _ x v h hu _ (1 : Fin 2) (fun hin => hl (by
      have h3 : (l.val - 0) / (0 + 1) < 120 := hin.2.2
      omega))

/-! ## What the host stretches leave in the three padded arrays -/

variable (m : (ℓ : Loc nD τ sig) → Buf (Elt Ideal) ℓ) (c : Dev nD)

/-- The projection matrix padded, transposed and converted. -/
theorem V6_v2 : (Gen.V6 m c main_v2 : S1024x128.Idx → EReal)
    = truncf (F := Ideal) .bf16 (transpose S1024x128 [1, 0]
        (pad S128x1024 ![0, 0] ![8, 0] ![0, 0] (m ((c : Thread nD τ).loc main_arg2) : S120x1024.Idx → EReal) zeroPad
          pads_S120x1024_S128x1024_080_000 h_S_) transposes_S128x1024_S1024x128_1_0) bitsLt_bf16_f32 := by
  dsimp only [Gen.V6, Gen.V5, Gen.V4, Gen.V3, Gen.V2, Gen.V1, Gen.hostOps0, Gen.hostOps0_1, Gen.hostOps0_2, Gen.hostOps0_3,
    Gen.hostOps0_4, Gen.hostOps0_5]
  after_results
  rfl

/-- The bias padded and reshaped to one row. -/
theorem V6_v4 : (Gen.V6 m c main_v4 : S1x128.Idx → EReal)
    = shapeCast S1x128 (pad S128 ![0] ![8] ![0] (m ((c : Thread nD τ).loc main_arg3) : S120.Idx → EReal) zeroPad
          pads_S120_S128_080 h_S_) shapeCasts_S128_S1x128 := by
  dsimp only [Gen.V6, Gen.V5, Gen.V4, Gen.V3, Gen.V2, Gen.V1, Gen.hostOps0, Gen.hostOps0_1, Gen.hostOps0_2, Gen.hostOps0_3,
    Gen.hostOps0_4, Gen.hostOps0_5]
  after_results
  rfl

/-- The weight row padded. -/
theorem V6_v5 : (Gen.V6 m c main_v5 : S1x128.Idx → EReal)
    = pad S1x128 ![0, 0] ![0, 8] ![0, 0] (m ((c : Thread nD τ).loc main_arg4) : S1x120.Idx → EReal) zeroPad
          pads_S1x120_S1x128_000_080 h_S_ := by
  dsimp only [Gen.V6, Gen.V5, Gen.V4, Gen.V3, Gen.V2, Gen.V1, Gen.hostOps0, Gen.hostOps0_1, Gen.hostOps0_2, Gen.hostOps0_3,
    Gen.hostOps0_4, Gen.hostOps0_5]
  after_results
  rfl

/-! ## The three arrays read at an index -/

/-- Column l of the transposed projection matrix is row l of the parameter below 120, zero from 120 on. -/
theorem v2_apply (d : Fin 1024) (l : Fin 128) :
    (Gen.V6 m c main_v2 : S1024x128.Idx → EReal) (ix2 d l)
      = if h : l.val < 120 then (m ((c : Thread nD τ).loc main_arg2) : S120x1024.Idx → EReal) (ix2 ⟨l.val, h⟩ d) else (0 : EReal) := by
  refine (congrFun (V6_v2 m c) (ix2 d l)).trans ?_
  refine (truncf_apply (φ := .f32) (ψ := .bf16) _ bitsLt_bf16_f32 (ix2 d l)).trans ?_
  refine (transpose_apply _ _ _ (ix2 d l) (ix2 l d) (fun b => match b with | ⟨0, _⟩ => rfl | ⟨1, _⟩ => rfl)).trans ?_
  refine (pad_rows_apply _ _ _ _ l d).trans ?_
  simp only [zeroPad_apply]

/-- Lane l of the padded bias row. -/
theorem v4_apply (l : Fin 128) :
    (Gen.V6 m c main_v4 : S1x128.Idx → EReal) (ix2 (0 : Fin 1) l)
      = Cert.PadAlgebra.pad (fun h => (m ((c : Thread nD τ).loc main_arg3) : S120.Idx → EReal) (ix1 h)) l := by
  refine (congrFun (V6_v4 m c) (ix2 (0 : Fin 1) l)).trans ?_
  refine (shapeCast_apply _ _ (ix2 (0 : Fin 1) l) (ix1 l) (by
    rw [Shape.rowMajor_val_one, Shape.rowMajor_val_two]
    show l.val = 0 * 128 + l.val
    omega)).trans ?_
  refine (pad_vec_apply _ _ _ _ l).trans ?_
  simp only [zeroPad_apply, Cert.PadAlgebra.pad]

/-- Lane l of the padded weight row. -/
theorem v5_apply (l : Fin 128) :
    (Gen.V6 m c main_v5 : S1x128.Idx → EReal) (ix2 (0 : Fin 1) l)
      = Cert.PadAlgebra.pad (fun h => (m ((c : Thread nD τ).loc main_arg4) : S1x120.Idx → EReal) (ix2 (0 : Fin 1) h)) l := by
  refine (congrFun (V6_v5 m c) (ix2 (0 : Fin 1) l)).trans ?_
  refine (pad_lanes_apply _ _ _ _ l).trans ?_
  simp only [zeroPad_apply, Cert.PadAlgebra.pad]

/-! ## The query is as launched -/

/-- No host stretch writes the query. -/
theorem v6_arg0 : Gen.V6 m c main_arg0 = m ((c : Thread nD τ).loc main_arg0) :=
  (V6_of m c main_arg0 (by decide)).trans <| (V5_of m c main_arg0 (by decide)).trans <|
    (V4_of m c main_arg0 (by decide)).trans <| (V3_of m c main_arg0 (by decide)).trans <|
    (V2_of m c main_arg0 (by decide)).trans <| (V1_of m c main_arg0 (by decide)).trans rfl

end Cert.KernelIdeal.HostPads

end
-- ==== Proof.KernelIdeal.Bridge.lean ====
/-
  The kernel pair's result array is the common function of the argument arrays.

  The first kernel leaves, at batch b, position s and lane l, the row of padded parameters projected, shifted,
  scaled and divided by its length; the padding algebra makes that the padding of the normalised row of the
  unpadded parameters.  The second kernel's scores, sums over the 128 lanes, are then the dot products of the
  normalised rows, and its result is the softmax of each row of scores.
-/
import proofs.«144623_j5428838662760_2_alg».proof.Proof.KernelIdeal.Seg0
import proofs.«144623_j5428838662760_2_alg».proof.Proof.KernelIdeal.ArrCtx
import proofs.«144623_j5428838662760_2_alg».proof.Proof.KernelIdeal.ArrScores
import proofs.«144623_j5428838662760_2_alg».proof.Proof.HostPads
import proofs.«144623_j5428838662760_2_alg».proof.Proof.PadAlgebra
import proofs.«144623_j5428838662760_2_alg».proof.Proof.Spec

noncomputable section

namespace Cert.KernelIdeal.HandValue

open Idealize.ShloMosaic Idealize.ShloMosaic.TcCoe Idealize.ShloMosaic.ValueIdx Cert.KernelIdeal Cert.KernelIdeal.Gen

namespace Bridge

/-! ## The algebra, over arrays of extended reals -/

section Algebra

/-- Lane l of the projected, shifted and scaled row of batch b, position s: the query array A against the
    transposed padded matrix B, plus the padded bias row C, times the padded weight row D. -/
def laneVal (A : S4x4096x1024.Idx → EReal) (B : S1024x128.Idx → EReal) (C D : S1x128.Idx → EReal)
    (b : Fin 4) (s : Fin 4096) (l : Fin 128) : EReal :=
  ((∑ d : Fin 1024, A (ix3 b s d) * B (ix2 d l)) + C (ix2 (0 : Fin 1) l)) * D (ix2 (0 : Fin 1) l)

variable (q : S4x4096x1024.Idx → EReal) (W : S120x1024.Idx → EReal) (bq : S120.Idx → EReal) (wt : S1x120.Idx → EReal)

/-- The projected, shifted and scaled row of batch b, position s, over the unpadded parameters. -/
abbrev ctxRow (b : Fin 4) (s : Fin 4096) : Fin 120 → EReal :=
  Cert.Spec.ctx (fun d => q (ix3 b s d)) (fun h d => W (ix2 h d)) (fun h => bq (ix1 h)) (fun h => wt (ix2 (0 : Fin 1) h))

/-- Over padded parameters the row before the division is the padding of the row over the unpadded ones. -/
theorem laneVal_eq_pad (A : S4x4096x1024.Idx → EReal) (B : S1024x128.Idx → EReal) (C D : S1x128.Idx → EReal)
    (hA : A = q)
    (hB : ∀ (d : Fin 1024) (l : Fin 128), B (ix2 d l) = if h : l.val < 120 then W (ix2 ⟨l.val, h⟩ d) else (0 : EReal))
    (hC : ∀ l : Fin 128, C (ix2 (0 : Fin 1) l) = Cert.PadAlgebra.pad (fun h => bq (ix1 h)) l)
    (hD : ∀ l : Fin 128, D (ix2 (0 : Fin 1) l) = Cert.PadAlgebra.pad (fun h => wt (ix2 (0 : Fin 1) h)) l)
    (b : Fin 4) (s : Fin 4096) (l : Fin 128) :
    laneVal A B C D b s l = Cert.PadAlgebra.pad (ctxRow q W bq wt b s) l := by
  unfold laneVal
  rw [hA, hC l, hD l]
  simp only [hB]
  exact Cert.PadAlgebra.cval_pad (fun d => q (ix3 b s d)) (fun h d => W (ix2 h d)) (fun h => bq (ix1 h))
    (fun h => wt (ix2 (0 : Fin 1) h)) l

variable (cvf : Fin 4 → Fin 4096 → Fin 128 → EReal) (X6 : S4x4096x128.Idx → EReal) (X7 : S4x4096x4096.Idx → EReal)
  (hcv : ∀ (b : Fin 4) (s : Fin 4096) (l : Fin 128), cvf b s l = Cert.PadAlgebra.pad (ctxRow q W bq wt b s) l)
  (hX6 : ∀ (b : Fin 4) (s : Fin 4096) (l : Fin 128), X6 (ix3 b s l)
    = Ideal.div (cvf b s l) (max (Ideal.sqrt (∑ l' : Fin 128, cvf b s l' * cvf b s l')) Cert.Spec.eps))
  (hX7 : ∀ (b : Fin 4) (s t : Fin 4096), X7 (ix3 b s t)
    = Cert.Spec.softmaxRow (fun t' => ∑ l : Fin 128, X6 (ix3 b s l) * X6 (ix3 b t' l)) t)

include hcv hX6 in
/-- The first kernel's result at lane l is the padding of the normalised row. -/
theorem X6_eq_pad (b : Fin 4) (s : Fin 4096) (l : Fin 128) :
    X6 (ix3 b s l) = Cert.PadAlgebra.pad (Cert.Spec.row q W bq wt b s) l := by
  rw [hX6 b s l]
  simp only [hcv]
  exact Cert.PadAlgebra.unit_pad (ctxRow q W bq wt b s) l

include hcv hX6 in
/-- The sums over the 128 lanes are the scores. -/
theorem X6_gram (b : Fin 4) (s t' : Fin 4096) :
    ∑ l : Fin 128, X6 (ix3 b s l) * X6 (ix3 b t' l) = Cert.Spec.scores q W bq wt b s t' := by
  simp only [X6_eq_pad q W bq wt cvf X6 hcv hX6]
  exact Cert.PadAlgebra.gram_pad _ _

include hcv hX6 hX7 in
/-- The second kernel's result array is the common function. -/
theorem X7_eq_G_of : X7 = Cert.Spec.G q W bq wt := by
  funext i
  obtain ⟨b, s, t, rfl⟩ : ∃ (b : Fin 4) (s t : Fin 4096), i = ix3 b s t := ⟨i 0, i 1, i 2, eq_ix3 i⟩
  have hs : (fun t' => ∑ l : Fin 128, X6 (ix3 b s l) * X6 (ix3 b t' l)) = Cert.Spec.scores q W bq wt b s :=
    funext fun t' => X6_gram q W bq wt cvf X6 hcv hX6 b s t'
  rw [hX7 b s t, hs]
  rfl

end Algebra

/-! ## At the program's arrays -/

variable (m : (ℓ : Loc nD τ sig) → Buf (Elt Ideal) ℓ) (c : Dev nD)

/-- The query array as launched. -/
abbrev argQ : S4x4096x1024.Idx → EReal := m ((c : Thread nD τ).loc main_arg0)
/-- The projection matrix as launched. -/
abbrev argW : S120x1024.Idx → EReal := m ((c : Thread nD τ).loc main_arg2)
/-- The bias as launched. -/
abbrev argB : S120.Idx → EReal := m ((c : Thread nD τ).loc main_arg3)
/-- The weight row as launched. -/
abbrev argT : S1x120.Idx → EReal := m ((c : Thread nD τ).loc main_arg4)
/-- What the first kernel leaves in its output array, as an array of extended reals. -/
abbrev X6f : S4x4096x128.Idx → EReal := Hand.X6 m c
/-- What the second kernel leaves in its output array, as an array of extended reals. -/
abbrev X7f : S4x4096x4096.Idx → EReal := Hand.X7 m c

/-- Lane l of the row before the division, over the padded parameters as the first kernel reads them. -/
def cv' (b : Fin 4) (s : Fin 4096) (l : Fin 128) : EReal :=
  laneVal (Gen.V6 m c main_arg0) (Gen.V6 m c main_v2) (Gen.V6 m c main_v4) (Gen.V6 m c main_v5) b s l

/-- It is the padding of the row over the unpadded parameters. -/
theorem cv'_eq_pad (b : Fin 4) (s : Fin 4096) (l : Fin 128) :
    cv' m c b s l = Cert.PadAlgebra.pad (ctxRow (argQ m c) (argW m c) (argB m c) (argT m c) b s) l := by
  unfold cv'
  exact laneVal_eq_pad (argQ m c) (argW m c) (argB m c) (argT m c)
    (Gen.V6 m c main_arg0) (Gen.V6 m c main_v2) (Gen.V6 m c main_v4) (Gen.V6 m c main_v5)
    (HostPads.v6_arg0 m c) (HostPads.v2_apply m c) (HostPads.v4_apply m c) (HostPads.v5_apply m c) b s l

/-- The second kernel's result array is the common function of the four argument arrays, given what the two kernels
    leave at an index. -/
theorem X7_eq_G_of_reads
    (hX6 : ∀ (b : Fin 4) (s : Fin 4096) (l : Fin 128), X6f m c (ix3 b s l)
      = Ideal.div (cv' m c b s l) (max (Ideal.sqrt (∑ l' : Fin 128, cv' m c b s l' * cv' m c b s l')) Cert.Spec.eps))
    (hX7 : ∀ (b : Fin 4) (s t : Fin 4096), X7f m c (ix3 b s t)
      = Cert.Spec.softmaxRow (fun t' => ∑ l : Fin 128, X6f m c (ix3 b s l) * X6f m c (ix3 b t' l)) t) :
    (Hand.X7 m c : S4x4096x4096.Idx → EReal) = Cert.Spec.G (m ((c : Thread nD τ).loc main_arg0))
      (m ((c : Thread nD τ).loc main_arg2)) (m ((c : Thread nD τ).loc main_arg3)) (m ((c : Thread nD τ).loc main_arg4)) :=
  X7_eq_G_of (argQ m c) (argW m c) (argB m c) (argT m c) (cv' m c) (X6f m c) (X7f m c) (cv'_eq_pad m c) hX6 hX7

end Bridge

variable (m : (ℓ : Loc nD τ sig) → Buf (Elt Ideal) ℓ) (c : Dev nD)

/-- The second kernel's result array is the common function of the four argument arrays, given what the second
    kernel leaves at an index (the first kernel's read is proved). -/
theorem X7_eq_G'
    (hX7 : ∀ (b : Fin 4) (s t : Fin 4096), Bridge.X7f m c (ix3 b s t)
      = Cert.Spec.softmaxRow (fun t' => ∑ l : Fin 128, Bridge.X6f m c (ix3 b s l) * Bridge.X6f m c (ix3 b t' l)) t) :
    (Hand.X7 m c : S4x4096x4096.Idx → EReal) = Cert.Spec.G (m ((c : Thread nD τ).loc main_arg0))
      (m ((c : Thread nD τ).loc main_arg2)) (m ((c : Thread nD τ).loc main_arg3)) (m ((c : Thread nD τ).loc main_arg4)) :=
  Bridge.X7_eq_G_of_reads m c (X6_apply m c) hX7

/-- The second kernel's result array is the common function of the four argument arrays. -/
theorem X7_eq_G : (Hand.X7 m c : S4x4096x4096.Idx → EReal) = Cert.Spec.G (m ((c : Thread nD τ).loc main_arg0))
      (m ((c : Thread nD τ).loc main_arg2)) (m ((c : Thread nD τ).loc main_arg3)) (m ((c : Thread nD τ).loc main_arg4)) :=
  X7_eq_G' m c (X7_apply m c)

end Cert.KernelIdeal.HandValue

end
-- ==== Proof.lean ====
/-
  The certificate of a two-call attention-score kernel against its plain reference, over the extended reals.

  Both programs take a query array q[4,4096,1024], a weight matrix W[120,1024], a bias bq[120] and a weight row wt[1,120]
  (a fifth argument is unused) and return out[4,4096,4096]:
    c[b,s,h]  = (Σ_d q[b,s,d]·W[h,d] + bq[h]) · wt[0,h]            the projected, shifted, scaled row
    u[b,s,:]  = c[b,s,:] / max(√(Σ_h c[b,s,h]²), ε)                the row over the larger of its length and a floor
    σ[b,s,t]  = Σ_h u[b,s,h]·u[b,t,h]                               the dot products of the rows of one batch
    out[b,s,:] = softmax of σ[b,s,:]                                exp(σ − max) over the sum of those exponentials.
  The reference computes this with host operations on the 120 real entries of a row. The kernel pads W, bq and wt with
  eight zero entries to rows of 128, so that the padded entries of c and of u are exactly zero and add nothing to a
  row's length or to a dot product; its first call writes u (as rows of 128) in slabs of 2048 rows, its second call reads
  that array through two windows — a slab of 512 rows and all 4096 rows of the batch — and writes the softmax of the
  slab's scores. Changes of float format are the identity over the extended reals.

  The three frame claims: each kernel call is run point by point on whole staging buffers (the second call's two input
  windows holding the one array they read at half a share each) and the program is the chain of its host stretches and
  the two calls; the reference's frame is its run with the result dropped. The idealization rewrote nothing. The value
  claim: the kernel's result array, read off the blocks its points wrote back, and the reference's result, read
  operation by operation, are both the one function Cert.Spec.G of the arguments.
-/
import proofs.«144623_j5428838662760_2_alg».proof.Defs
import proofs.«144623_j5428838662760_2_alg».proof.Proof.Gen.Kernel
import proofs.«144623_j5428838662760_2_alg».proof.Proof.Gen.Kernel.Skeleton
import proofs.«144623_j5428838662760_2_alg».proof.Proof.Gen.Kernel.Launch
import proofs.«144623_j5428838662760_2_alg».proof.Proof.Gen.Kernel.Regions
import proofs.«144623_j5428838662760_2_alg».proof.Proof.Gen.Kernel.Points
import proofs.«144623_j5428838662760_2_alg».proof.Proof.Gen.KernelIdeal
import proofs.«144623_j5428838662760_2_alg».proof.Proof.Gen.KernelIdeal.Skeleton
import proofs.«144623_j5428838662760_2_alg».proof.Proof.Gen.KernelIdeal.Launch
import proofs.«144623_j5428838662760_2_alg».proof.Proof.Gen.KernelIdeal.Regions
import proofs.«144623_j5428838662760_2_alg».proof.Proof.Gen.KernelIdeal.Points
import proofs.«144623_j5428838662760_2_alg».proof.Proof.Gen.ReferenceIdeal
import proofs.«144623_j5428838662760_2_alg».proof.Proof.Gen.Pre_finite_inputs
import proofs.«144623_j5428838662760_2_alg».proof.Proof.Gen.ReferenceIdeal.Run
import proofs.«144623_j5428838662760_2_alg».proof.Proof.Gen.ReferenceIdeal.Read
import proofs.«144623_j5428838662760_2_alg».proof.Proof.Kernel.Frame
import proofs.«144623_j5428838662760_2_alg».proof.Proof.KernelIdeal.Frame
import proofs.«144623_j5428838662760_2_alg».proof.Proof.RefValue
import proofs.«144623_j5428838662760_2_alg».proof.Proof.KernelIdeal.Bridge
import Idealize.ShloMosaic.Adequacy
import Idealize.ShloMosaic.Init

noncomputable section

namespace Cert.Proof

open Idealize.ShloMosaic Idealize.SL.Sem

/-- The printed kernel program runs to the end, faults nowhere and leaves its arguments unchanged. -/
theorem frame_kernel : Cert.frame_Kernel := fun m ρ _ => Cert.Kernel.Hand.frame (F := Bits) m ρ

/-- So does its reading over the extended reals. -/
theorem frame_kernelIdeal : Cert.frame_KernelIdeal := fun m ρ _ => Cert.KernelIdeal.Hand.frame (F := Ideal) m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.RefValue.run_spec m ρ)

/-- The idealization rewrote no operation. -/
theorem preserves : Cert.preserves_Kernel_KernelIdeal := trivial

/-- Over the extended reals both programs end with the result array at the softmax, row by row, of the dot products of
    the normalised projected rows: the kernel's two calls by their blocks written back (the eight zero lanes of its padded
    rows adding nothing to a length or a dot product), the reference's host operations one by one. -/
theorem algebraic : Cert.algebraic_KernelIdeal_ReferenceIdeal := by
  intro m ρ m' ρ' _ hagree
  refine ⟨fun c => Cert.KernelIdeal.Hand.X7 m c, Cert.KernelIdeal.Hand.run (F := Ideal) m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.2.1, (hagree c).2.2.2.1, (hagree c).2.2.2.2]
  exact (Cert.KernelIdeal.HandValue.X7_eq_G m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
